-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3072 : Shape := ⟨2, ![16384, 3072]⟩
abbrev S3072x3072 : Shape := ⟨2, ![3072, 3072]⟩
abbrev S512x3072 : Shape := ⟨2, ![512, 3072]⟩
abbrev S512 : Shape := ⟨1, ![512]⟩
abbrev S10x512 : Shape := ⟨2, ![10, 512]⟩
abbrev S10 : Shape := ⟨1, ![10]⟩
abbrev S_ : Shape := ⟨0, ![]⟩

class Facts : Prop where
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S3072x3072 : S_.BroadcastsInDim S3072x3072 (![] : Fin 0 → Fin S3072x3072.rank)
  reducesTo_S3072x3072_S_d0_1 : S3072x3072.ReducesTo [0, 1] S_
  bcast_S_S512x3072 : S_.BroadcastsInDim S512x3072 (![] : Fin 0 → Fin S512x3072.rank)
  reducesTo_S512x3072_S_d0_1 : S512x3072.ReducesTo [0, 1] S_
  bcast_S_S512 : S_.BroadcastsInDim S512 (![] : Fin 0 → Fin S512.rank)
  reducesTo_S512_S_d0 : S512.ReducesTo [0] S_
  bcast_S_S10x512 : S_.BroadcastsInDim S10x512 (![] : Fin 0 → Fin S10x512.rank)
  reducesTo_S10x512_S_d0_1 : S10x512.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S10x512 .f32) (main_arg5 : FVec F S10 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S10x512 .f32 := Host.absf main_arg4
  let main_cst_6 : FVec F S_ .f32 := constant S_ .f32 0x7F800000#32
  let main_v20 : FVec F S10x512 .f32 := broadcastInDim S10x512 ![] bcast_S_S10x512 main_cst_6
  let main_v21 : IVec S10x512 1 := cmpf .olt main_v19 main_v20
  let main_c_7 : IVec S_ 1 := constantI S_ 1 1#1
  let main_v22 : IVec S_ 1 := (fun x v => Host.reduce IntOp.andi x v reducesTo_S10x512_S_d0_1 h_S_) main_v21 main_c_7
  let main_v23 : IVec S_ 1 := andi main_v18 main_v22
  let main_v24 : FVec F S10 .f32 := Host.absf main_arg5
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  main_v28

def fn {F : FTy → Type} [FloatOps F] (main_arg0 : FVec F S16384x3072 .f32) (main_arg1 : FVec F S3072x3072 .f32) (main_arg2 : FVec F S512x3072 .f32) (main_arg3 : FVec F S512 .f32) (main_arg4 : FVec F S10x512 .f32) (main_arg5 : FVec F S10 .f32) : IVec S_ 1 :=
  let main_v0 : FVec F S16384x3072 .f32 := Host.absf main_arg0
  let main_cst : FVec F S_ .f32 := constant S_ .f32 0x7F800000#32
  let main_v1 : FVec F S16384x3072 .f32 := broadcastInDim S16384x3072 ![] bcast_S_S16384x3072 main_cst
  let main_v2 : IVec S16384x3072 1 := cmpf .olt main_v0 main_v1
  let main_c : IVec S_ 1 := constantI S_ 1 1#1
  let main_v3 : IVec S_ 1 := (fun x v => Host.reduce IntOp.andi x v reducesTo_S16384x3072_S_d0_1 h_S_) main_v2 main_c
  let main_v4 : FVec F S3072x3072 .f32 := Host.absf main_arg1
  let main_cst_0 : FVec F S_ .f32 := constant S_ .f32 0x7F800000#32
  let main_v5 : FVec F S3072x3072 .f32 := broadcastInDim S3072x3072 ![] bcast_S_S3072x3072 main_cst_0
  let main_v6 : IVec S3072x3072 1 := cmpf .olt main_v4 main_v5
  let main_c_1 : IVec S_ 1 := constantI S_ 1 1#1
  let main_v7 : IVec S_ 1 := (fun x v => Host.reduce IntOp.andi x v reducesTo_S3072x3072_S_d0_1 h_S_) main_v6 main_c_1
  let main_v8 : IVec S_ 1 := andi main_v3 main_v7
  let main_v9 : FVec F S512x3072 .f32 := Host.absf main_arg2
  let main_cst_2 : FVec F S_ .f32 := constant S_ .f32 0x7F800000#32
  let main_v10 : FVec F S512x3072 .f32 := broadcastInDim S512x3072 ![] bcast_S_S512x3072 main_cst_2
  let main_v11 : IVec S512x3072 1 := cmpf .olt main_v9 main_v10
  let main_c_3 : IVec S_ 1 := constantI S_ 1 1#1
  let main_v12 : IVec S_ 1 := (fun x v => Host.reduce IntOp.andi x v reducesTo_S512x3072_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S16384x3072 : Shape := ⟨2, ![16384, 3072]⟩
abbrev S3072x3072 : Shape := ⟨2, ![3072, 3072]⟩
abbrev S512x3072 : Shape := ⟨2, ![512, 3072]⟩
abbrev S512 : Shape := ⟨1, ![512]⟩
abbrev S10x512 : Shape := ⟨2, ![10, 512]⟩
abbrev S10 : Shape := ⟨1, ![10]⟩
abbrev S3072x512 : Shape := ⟨2, ![3072, 512]⟩
abbrev S512x10 : Shape := ⟨2, ![512, 10]⟩
abbrev S1x512 : Shape := ⟨2, ![1, 512]⟩
abbrev S1x10 : Shape := ⟨2, ![1, 10]⟩
abbrev S_ : Shape := ⟨0, ![]⟩
abbrev S512x128 : Shape := ⟨2, ![512, 128]⟩
abbrev S1x128 : Shape := ⟨2, ![1, 128]⟩
abbrev S16384x128 : Shape := ⟨2, ![16384, 128]⟩
abbrev S1024x512 : Shape := ⟨2, ![1024, 512]⟩
abbrev S1024x128 : Shape := ⟨2, ![1024, 128]⟩
abbrev S1024x3072 : Shape := ⟨2, ![1024, 3072]⟩
abbrev S16384x10 : Shape := ⟨2, ![16384, 10]⟩

abbrev nBuf : Space → Nat
  | .hbm => 21
  | .vmem => 11
  | .smem => 0
  | _ => 0

abbrev bufTy : (tb : Table) → Fin (tcTables nBuf tb) → BufTy
  | .hbm, ⟨0, _⟩ => ⟨S16384x3072, .f32⟩
  | .hbm, ⟨1, _⟩ => ⟨S3072x3072, .f32⟩
  | .hbm, ⟨2, _⟩ => ⟨S512x3072, .f32⟩
  | .hbm, ⟨3, _⟩ => ⟨S512, .f32⟩
  | .hbm, ⟨4, _⟩ => ⟨S10x512, .f32⟩
  | .hbm, ⟨5, _⟩ => ⟨S10, .f32⟩
  | .hbm, ⟨6, _⟩ => ⟨S3072x3072, .bf16⟩
  | .hbm, ⟨7, _⟩ => ⟨S3072x512, .f32⟩
  | .hbm, ⟨8, _⟩ => ⟨S3072x512, .bf16⟩
  | .hbm, ⟨9, _⟩ => ⟨S512x10, .f32⟩
  | .hbm, ⟨10, _⟩ => ⟨S512x10, .bf16⟩
  | .hbm, ⟨11, _⟩ => ⟨S1x512, .f32⟩
  | .hbm, ⟨12, _⟩ => ⟨S1x10, .f32⟩
  | .hbm, ⟨13, _⟩ => ⟨S_, .i32⟩
  | .hbm, ⟨14, _⟩ => ⟨S_, .bf16⟩
  | .hbm, ⟨15, _⟩ => ⟨S512x128, .bf16⟩
  | .hbm, ⟨16, _⟩ => ⟨S_, .i32⟩
  | .hbm, ⟨17, _⟩ => ⟨S_, .f32⟩
  | .hbm, ⟨18, _⟩ => ⟨S1x128, .f32⟩
  | .hbm, ⟨19, _⟩ => ⟨S16384x128, .f32⟩
  | .hbm, ⟨20, _⟩ => ⟨S16384x10, .f32⟩
  | .local _ .vmem, ⟨0, _⟩ => ⟨S1024x512, .f32⟩
  | .local _ .vmem, ⟨1, _⟩ => ⟨S1024x512, .f32⟩
  | .local _ .vmem, ⟨2, _⟩ => ⟨S512x3072, .bf16⟩
  | .local _ .vmem, ⟨3, _⟩ => ⟨S512x3072, .bf16⟩
  | .local _ .vmem, ⟨4, _⟩ => ⟨S3072x512, .bf16⟩
  | .local _ .vmem, ⟨5, _⟩ => ⟨S1x512, .f32⟩
  | .local _ .vmem, ⟨6, _⟩ => ⟨S512x128, .bf16⟩
  | .local _ .vmem, ⟨7, _⟩ => ⟨S1x128, .f32⟩
  | .local _ .vmem, ⟨8, _⟩ => ⟨S1024x128, .f32⟩
  | .local _ .vmem, ⟨9, _⟩ => ⟨S1024x128, .f32⟩
  | .local _ .vmem, ⟨10, _⟩ => ⟨S1024x3072, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 6], ![false, false]⟩

def k0_cond2 (i : grid0.Coords) : BitVec 1 :=
  let arg1 : BitVec 32 := BitVec.ofNat 32 (i 1).val
  let c5_i32 : BitVec 32 := 5#32
  let v13 : BitVec 1 := Scalar.cmpi .eq arg1 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S3072x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bitsLt_bf16_f32 : FTy.bits .bf16 < FTy.bits .f32
  transposes_S512x3072_S3072x512_1_0 : S512x3072.Transposes [1, 0] S3072x512
  transposes_S10x512_S512x10_1_0 : S10x512.Transposes [1, 0] S512x10
  shapeCasts_S512_S1x512 : S512.ShapeCasts S1x512
  shapeCasts_S10_S1x10 : S10.ShapeCasts S1x10
  pads_S512x10_S512x128_000_01180 : S512x10.Pads (![0, 0] : Fin 2 → Nat) ![0, 118] ![0, 0] S512x128
  h_S_ : 0 < S_.numel
  pads_S1x10_S1x128_000_01180 : S1x10.Pads (![0, 0] : Fin 2 → Nat) ![0, 118] ![0, 0] S1x128
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1024x512_S1024x512_0_0 : ∀ a, (![0, 0] : Fin 2 → Nat) a + S1024x512.size a ≤ S1024x512.size a
  h_S1024x512 : 0 < S1024x512.numel
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  inb_S3072x512_S3072x512_0_0 : ∀ a, (![0, 0] : Fin 2 → Nat) a + S3072x512.size a ≤ S3072x512.size a
  h_S3072x512 : 0 < S3072x512.numel
  shapeCasts_S3072x512_S3072x512 : S3072x512.ShapeCasts S3072x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  slices_S16384x128_S16384x10_0_0 : S16384x128.Slices ![0, 0] S16384x10
  dot_S1024x512_S512x3072_S1024x3072_1_0_0_1_n_n_wf : DotDims.WF S1024x512 S512x3072 S1024x3072 [1] [0] [0] [1] [] []
  dot_S1024x3072_S3072x512_S1024x512_1_0_0_1_n_n_wf : DotDims.WF S1024x3072 S3072x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x3072.size a
  hwx0_0 : ∀ i : grid0.Coords, EltTy.bits .f32 = 32 ∨ (Rect.block (s := S16384x3072) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3072.size a ≤ S3072x3072.size a
  hwx0_1 : ∀ i : grid0.Coords, EltTy.bits .bf16 = 32 ∨ (Rect.block (s := S3072x3072) S512x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072x512.size a ≤ S3072x512.size a
  hwx0_2 : ∀ i : grid0.Coords, EltTy.bits .bf16 = 32 ∨ (Rect.block (s := S3072x512) S3072x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .bf16 = 32 ∨ (Rect.block (s := S512x128) S512x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S16384x128.size a
  hwx0_6 : ∀ i : grid0.Coords, EltTy.bits .f32 = 32 ∨ (Rect.block (s := S16384x128) S1024x128.size (cc0_transform_6 i) (hinb0_6 i)).WholeWords (EltTy.packing .f32)

variable [Facts₀]

def dot_S1024x512_S512x3072_S1024x3072_1_0_0_1_n_n : DotDims S1024x512 S512x3072 S1024x3072 where
  lhsContracting := [1]
  rhsContracting := [0]
  lhsNonContracting := [0]
  rhsNonContracting := [1]
  lhsBatch := []
  rhsBatch := []
  wf := dot_S1024x512_S512x3072_S1024x3072_1_0_0_1_n_n_wf
def dot_S1024x3072_S3072x512_S1024x512_1_0_0_1_n_n : DotDims S1024x3072 S3072x512 S1024x512 where
  lhsContracting := [1]
  rhsContracting := [0]
  lhsNonContracting := [0]
  rhsNonContracting := [1]
  lhsBatch := []
  rhsBatch := []
  wf := dot_S1024x3072_S3072x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S3072x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S16384x3072 : Shape := ⟨2, ![16384, 3072]⟩
abbrev S3072x3072 : Shape := ⟨2, ![3072, 3072]⟩
abbrev S512x3072 : Shape := ⟨2, ![512, 3072]⟩
abbrev S512 : Shape := ⟨1, ![512]⟩
abbrev S10x512 : Shape := ⟨2, ![10, 512]⟩
abbrev S10 : Shape := ⟨1, ![10]⟩
abbrev S3072x512 : Shape := ⟨2, ![3072, 512]⟩
abbrev S16384x512 : Shape := ⟨2, ![16384, 512]⟩
abbrev S1x512 : Shape := ⟨2, ![1, 512]⟩
abbrev S_ : Shape := ⟨0, ![]⟩
abbrev S512x10 : Shape := ⟨2, ![512, 10]⟩
abbrev S16384x10 : Shape := ⟨2, ![16384, 10]⟩
abbrev S1x10 : Shape := ⟨2, ![1, 10]⟩

abbrev nBuf : Space → Nat
  | .hbm => 20
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S3072x3072, .f32⟩
  | .hbm, ⟨2, _⟩ => ⟨S512x3072, .f32⟩
  | .hbm, ⟨3, _⟩ => ⟨S512, .f32⟩
  | .hbm, ⟨4, _⟩ => ⟨S10x512, .f32⟩
  | .hbm, ⟨5, _⟩ => ⟨S10, .f32⟩
  | .hbm, ⟨6, _⟩ => ⟨S16384x3072, .f32⟩
  | .hbm, ⟨7, _⟩ => ⟨S3072x512, .f32⟩
  | .hbm, ⟨8, _⟩ => ⟨S16384x512, .f32⟩
  | .hbm, ⟨9, _⟩ => ⟨S1x512, .f32⟩
  | .hbm, ⟨10, _⟩ => ⟨S16384x512, .f32⟩
  | .hbm, ⟨11, _⟩ => ⟨S16384x512, .f32⟩
  | .hbm, ⟨12, _⟩ => ⟨S_, .f32⟩
  | .hbm, ⟨13, _⟩ => ⟨S16384x512, .f32⟩
  | .hbm, ⟨14, _⟩ => ⟨S16384x512, .f32⟩
  | .hbm, ⟨15, _⟩ => ⟨S512x10, .f32⟩
  | .hbm, ⟨16, _⟩ => ⟨S16384x10, .f32⟩
  | .hbm, ⟨17, _⟩ => ⟨S1x10, .f32⟩
  | .hbm, ⟨18, _⟩ => ⟨S16384x10, .f32⟩
  | .hbm, ⟨19, _⟩ => ⟨S16384x10, .f32⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  transposes_S512x3072_S3072x512_1_0 : S512x3072.Transposes [1, 0] S3072x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  transposes_S10x512_S512x10_1_0 : S10x512.Transposes [1, 0] S512x10
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  dot_S16384x3072_S3072x3072_S16384x3072_1_0_0_1_n_n_wf : DotDims.WF S16384x3072 S3072x3072 S16384x3072 [1] [0] [0] [1] [] []
  dot_S16384x3072_S3072x512_S16384x512_1_0_0_1_n_n_wf : DotDims.WF S16384x3072 S3072x512 S16384x512 [1] [0] [0] [1] [] []
  dot_S16384x512_S512x10_S16384x10_1_0_0_1_n_n_wf : DotDims.WF S16384x512 S512x10 S16384x10 [1] [0] [0] [1] [] []

variable [Facts₀]

def dot_S16384x3072_S3072x3072_S16384x3072_1_0_0_1_n_n : DotDims S16384x3072 S3072x3072 S16384x3072 where
  lhsContracting := [1]
  rhsContracting := [0]
  lhsNonContracting := [0]
  rhsNonContracting := [1]
  lhsBatch := []
  rhsBatch := []
  wf := dot_S16384x3072_S3072x3072_S16384x3072_1_0_0_1_n_n_wf
def dot_S16384x3072_S3072x512_S16384x512_1_0_0_1_n_n : DotDims S16384x3072 S3072x512 S16384x512 where
  lhsContracting := [1]
  rhsContracting := [0]
  lhsNonContracting := [0]
  rhsNonContracting := [1]
  lhsBatch := []
  rhsBatch := []
  wf := dot_S16384x3072_S3072x512_S16384x512_1_0_0_1_n_n_wf
def dot_S16384x512_S512x10_S16384x10_1_0_0_1_n_n : DotDims S16384x512 S512x10 S16384x10 where
  lhsContracting := [1]
  rhsContracting := [0]
  lhsNonContracting := [0]
  rhsNonContracting := [1]
  lhsBatch := []
  rhsBatch := []
  wf := dot_S16384x512_S512x10_S16384x10_1_0_0_1_n_n_wf

class Facts : Prop extends Facts₀ where

variable [Facts]
-- ==== Proof.Pieces.lean ====
/-
  What the kernel body leaves at one grid point, case by case, as values.

  The body keeps a running block acc : [1024, 3072] in a scratch buffer. At a point whose second coordinate is 0 it
  first stores the zero block, reads it back, and stores  0 + a · w  (case A); at every other point it stores
  acc + a · w  over what the point before left (cases B and C); at a point whose second coordinate is 5 it moreover
  reads that sum back and stores the head of it into the output block (case C). Here each of these stored values,
  which the generated run holds as a list of rectangle writes read back, is identified with the corresponding named
  pure term of the body applied to the blocks the point was handed: every store and load covers its whole buffer.
-/
import proofs.«119323_j23476291240731_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The offsets of every rectangle the body loads or stores through: the origin. -/
theorem hz : (![0, 0] : Fin 2 → Nat) = fun _ => 0 := funext fun a => by fin_cases a <;> rfl

/-- Case A (second grid coordinate 0): the scratch ends at one step taken from the zero block. -/
theorem scratch_A (c : Dev nD) (i : grid0.Coords) (arg2 : Memref sig .tc .vmem S1024x512 .f32) (harg2 : arg2.IsWhole) (arg3 : Memref sig .tc .vmem S512x3072 .bf16) (harg3 : arg3.IsWhole) (arg4 : Memref sig .tc .vmem S3072x512 .bf16) (harg4 : arg4.IsWhole) (arg5 : Memref sig .tc .vmem S1x512 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x3072 .f32) (harg9 : arg9.IsWhole) (hc0 : cond0_0 i) (hc1 : ¬cond0_1 i) (x0 : Vec F S1024x512 .f32) (x1 : Vec F S512x3072 .bf16) (x2 : Vec F S3072x512 .bf16) (x3 : Vec F S1x512 .f32) (x4 : Vec F S512x128 .bf16) (x5 : Vec F S1x128 .f32) :
    sout0_A_0 c i arg2 harg2 arg3 harg3 arg4 harg4 arg5 harg5 arg6 harg6 arg7 harg7 arg8 harg8 arg9 harg9 hc0 hc1 x0 x1 x2 x3 x4 x5 = k0_pay2 x0 (k0_pay1 (F := F)) x1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1024x3072) hz, View.readCov_unit_zero (S := S1024x3072) _ hz]
  simp only [View.readAt_eq_ld, harg2.read_unread, harg3.read_unread, View.ld_unit_zero (S := S1024x512) hz, View.ld_unit_zero (S := S512x3072) hz, View.ld_unit_zero (S := S1024x3072) hz, View.ld_unit_zero (S := S3072x512) hz, View.ld_unit_zero (S := S1x512) hz, View.ld_unit_zero (S := S512x128) hz, View.ld_unit_zero (S := S1x128) hz]

/-- Case B (second grid coordinate 1 to 4): the scratch ends at one step taken from what the point before left. -/
theorem scratch_B (c : Dev nD) (i : grid0.Coords) (arg2 : Memref sig .tc .vmem S1024x512 .f32) (harg2 : arg2.IsWhole) (arg3 : Memref sig .tc .vmem S512x3072 .bf16) (harg3 : arg3.IsWhole) (arg4 : Memref sig .tc .vmem S3072x512 .bf16) (harg4 : arg4.IsWhole) (arg5 : Memref sig .tc .vmem S1x512 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x3072 .f32) (harg9 : arg9.IsWhole) (hc0 : ¬cond0_0 i) (hc1 : ¬cond0_1 i) (x0 : Vec F S1024x512 .f32) (x1 : Vec F S512x3072 .bf16) (x2 : Vec F S3072x512 .bf16) (x3 : Vec F S1x512 .f32) (x4 : Vec F S512x128 .bf16) (x5 : Vec F S1x128 .f32) (xs0 : Vec F S1024x3072 .f32) :
    sout0_B_0 c i arg2 harg2 arg3 harg3 arg4 harg4 arg5 harg5 arg6 harg6 arg7 harg7 arg8 harg8 arg9 harg9 hc0 hc1 x0 x1 x2 x3 x4 x5 xs0 = k0_pay2 x0 xs0 x1 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero (S := S1024x3072) hz]
  simp only [View.readAt_eq_ld, harg2.read_unread, harg3.read_unread, harg9.read_unread, View.ld_unit_zero (S := S1024x512) hz, View.ld_unit_zero (S := S512x3072) hz, View.ld_unit_zero (S := S1024x3072) hz, View.ld_unit_zero (S := S3072x512) hz, View.ld_unit_zero (S := S1x512) hz, View.ld_unit_zero (S := S512x128) hz, View.ld_unit_zero (S := S1x128) hz]

/-- Case C (second grid coordinate 5): the scratch ends at one step taken from what the point before left, -/
theorem scratch_C (c : Dev nD) (i : grid0.Coords) (arg2 : Memref sig .tc .vmem S1024x512 .f32) (harg2 : arg2.IsWhole) (arg3 : Memref sig .tc .vmem S512x3072 .bf16) (harg3 : arg3.IsWhole) (arg4 : Memref sig .tc .vmem S3072x512 .bf16) (harg4 : arg4.IsWhole) (arg5 : Memref sig .tc .vmem S1x512 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x3072 .f32) (harg9 : arg9.IsWhole) (hc0 : ¬cond0_0 i) (hc1 : cond0_1 i) (x0 : Vec F S1024x512 .f32) (x1 : Vec F S512x3072 .bf16) (x2 : Vec F S3072x512 .bf16) (x3 : Vec F S1x512 .f32) (x4 : Vec F S512x128 .bf16) (x5 : Vec F S1x128 .f32) (xs0 : Vec F S1024x3072 .f32) :
    sout0_C_0 c i arg2 harg2 arg3 harg3 arg4 harg4 arg5 harg5 arg6 harg6 arg7 harg7 arg8 harg8 arg9 harg9 hc0 hc1 x0 x1 x2 x3 x4 x5 xs0 = k0_pay2 x0 xs0 x1 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S1024x3072) hz]
  simp only [View.readAt_eq_ld, harg2.read_unread, harg3.read_unread, harg9.read_unread, View.ld_unit_zero (S := S1024x512) hz, View.ld_unit_zero (S := S512x3072) hz, View.ld_unit_zero (S := S1024x3072) hz, View.ld_unit_zero (S := S3072x512) hz, View.ld_unit_zero (S := S1x512) hz, View.ld_unit_zero (S := S512x128) hz, View.ld_unit_zero (S := S1x128) hz]

/-- and the output block at the head of that finished sum. -/
theorem out_C (c : Dev nD) (i : grid0.Coords) (arg2 : Memref sig .tc .vmem S1024x512 .f32) (harg2 : arg2.IsWhole) (arg3 : Memref sig .tc .vmem S512x3072 .bf16) (harg3 : arg3.IsWhole) (arg4 : Memref sig .tc .vmem S3072x512 .bf16) (harg4 : arg4.IsWhole) (arg5 : Memref sig .tc .vmem S1x512 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x3072 .f32) (harg9 : arg9.IsWhole) (hc0 : ¬cond0_0 i) (hc1 : cond0_1 i) (x0 : Vec F S1024x512 .f32) (x1 : Vec F S512x3072 .bf16) (x2 : Vec F S3072x512 .bf16) (x3 : Vec F S1x512 .f32) (x4 : Vec F S512x128 .bf16) (x5 : Vec F S1x128 .f32) (xs0 : Vec F S1024x3072 .f32) :
    out0_C_6 c i arg2 harg2 arg3 harg3 arg4 harg4 arg5 harg5 arg6 harg6 arg7 harg7 arg8 harg8 arg9 harg9 hc0 hc1 x0 x1 x2 x3 x4 x5 xs0 = k0_pay3 (k0_pay2 x0 xs0 x1) x2 x3 x4 x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S1024x128) hz, View.readCov_unit_zero (S := S1024x3072) _ hz]
  simp only [View.readAt_eq_ld, harg2.read_unread, harg3.read_unread, harg4.read_unread, harg5.read_unread, harg6.read_unread,
    harg7.read_unread, harg9.read_unread, View.ld_unit_zero (S := S1024x512) hz, View.ld_unit_zero (S := S512x3072) hz, View.ld_unit_zero (S := S1024x3072) hz, View.ld_unit_zero (S := S3072x512) hz, View.ld_unit_zero (S := S1x512) hz, View.ld_unit_zero (S := S512x128) hz, View.ld_unit_zero (S := S1x128) hz]

end Cert.KernelIdeal.Pieces

end
-- ==== Proof.Blocks.lean ====
/-
  What the kernel's windows hold at a grid point, and what the arrays behind them hold when the region is entered.

  The grid is 16 × 6, point t = 6·b + k the k-th block of 512 contraction positions for the b-th block of 1024 rows.
  Window 0 hands the body rows 1024·b … of x and columns 512·k …; window 1 rows 512·k … of the first weight matrix,
  all its columns; windows 2 to 5 each a whole array, at every point; window 6, the output, rows 1024·b … of a
  [16384, 128] array. The arrays of windows 1 to 5 are written by the host before the region: the first weight matrix
  narrowed to bf16, the second transposed and narrowed, its bias as one row, the third transposed, narrowed and padded
  with zero columns from 10 to 128, its bias as one row padded likewise.
-/
import proofs.«119323_j23476291240731_2_alg».proof.Proof.Gen.KernelIdeal.Frame
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx

namespace Cert.KernelIdeal.Net

open Cert.KernelIdeal Cert.KernelIdeal.Gen

variable {F : FTy → Type} [FloatOps F]
variable (m : (ℓ : Loc nD τ sig) → Buf (Elt F) ℓ)

/-- The windows' block indices at grid point t, decided over the 96 points. -/
theorem idx_facts : ∀ t : Fin cfg0.N,
    win0_0.index t (0 : Fin 2) = t.val / 6 ∧ win0_0.index t (1 : Fin 2) = t.val % 6
    ∧ win0_1.index t (0 : Fin 2) = t.val % 6 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val / 6 ∧ win0_6.index t (1 : Fin 2) = 0 :=
  (by decide +kernel : ∀ t : Fin grid0.N, _)

/-- Window 0 at point t, entry (p, l): x at row 1024·(t / 6) + p, column 512·(t % 6) + l. -/
theorem iblk0_apply (c : Dev nD) (t : Fin cfg0.N) (p : Fin 1024) (l : Fin 512) (P : Fin 16384) (L : Fin 3072)
    (hP : P.val = 1024 * (t.val / 6) + p.val) (hL : L.val = 512 * (t.val % 6) + l.val) :
    (iblk m c 0 t : Vec F S1024x512 .f32) (ix2 p l) = V m c main_arg0 (ix2 P L) := by
  obtain ⟨e0, e1, -⟩ := idx_facts t
  show V m c main_arg0 (((cfg0.win 0).blk t).view.emb (ix2 p l)) = V m c main_arg0 (ix2 P L)
  refine congrArg (V m c main_arg0) (funext fun a => Fin.ext ?_)
  match a with
  | ⟨0, _⟩ => show win0_0.index t (0 : Fin 2) * 1024 + 1 * p.val = P.val; omega
  | ⟨1, _⟩ => show win0_0.index t (1 : Fin 2) * 512 + 1 * l.val = L.val; omega

/-- Window 1 at point t, entry (l, q): the first weight matrix at row 512·(t % 6) + l, column q. -/
theorem iblk1_apply (c : Dev nD) (t : Fin cfg0.N) (l : Fin 512) (q : Fin 3072) (L : Fin 3072)
    (hL : L.val = 512 * (t.val % 6) + l.val) :
    (iblk m c 1 t : Vec F S512x3072 .bf16) (ix2 l q) = V m c main_v0 (ix2 L q) := by
  obtain ⟨-, -, e0, e1, -⟩ := idx_facts t
  show V m c main_v0 (((cfg0.win 1).blk t).view.emb (ix2 l q)) = V m c main_v0 (ix2 L q)
  refine congrArg (V m c main_v0) (funext fun a => Fin.ext ?_)
  match a with
  | ⟨0, _⟩ => show win0_1.index t (0 : Fin 2) * 512 + 1 * l.val = L.val; omega
  | ⟨1, _⟩ => show win0_1.index t (1 : Fin 2) * 3072 + 1 * q.val = q.val; omega

/-- Windows 2 to 5 hand the body their whole arrays at every point. -/
theorem iblk2_eq (c : Dev nD) (t : Fin cfg0.N) : (iblk m c 2 t : Vec F S3072x512 .bf16) = V m c main_v2 := by
  obtain ⟨-, -, -, -, e0, e1, -⟩ := idx_facts t
  funext j
  show V m c main_v2 (((cfg0.win 2).blk t).view.emb j) = V m c main_v2 j
  refine congrArg (V m c main_v2) (funext fun a => Fin.ext ?_)
  match a with
  | ⟨0, _⟩ => show win0_2.index t (0 : Fin 2) * 3072 + 1 * (j 0).val = (j 0).val; omega
  | ⟨1, _⟩ => show win0_2.index t (1 : Fin 2) * 512 + 1 * (j 1).val = (j 1).val; omega

theorem iblk3_eq (c : Dev nD) (t : Fin cfg0.N) : (iblk m c 3 t : Vec F S1x512 .f32) = V m c main_v5 := by
  obtain ⟨-, -, -, -, -, -, e0, e1, -⟩ := idx_facts t
  funext j
  show V m c main_v5 (((cfg0.win 3).blk t).view.emb j) = V m c main_v5 j
  refine congrArg (V m c main_v5) (funext fun a => Fin.ext ?_)
  match a with
  | ⟨0, _⟩ => show win0_3.index t (0 : Fin 2) * 1 + 1 * (j 0).val = (j 0).val; omega
  | ⟨1, _⟩ => show win0_3.index t (1 : Fin 2) * 512 + 1 * (j 1).val = (j 1).val; omega

theorem iblk4_eq (c : Dev nD) (t : Fin cfg0.N) : (iblk m c 4 t : Vec F S512x128 .bf16) = V m c main_v7 := by
  obtain ⟨-, -, -, -, -, -, -, -, e0, e1, -⟩ := idx_facts t
  funext j
  show V m c main_v7 (((cfg0.win 4).blk t).view.emb j) = V m c main_v7 j
  refine congrArg (V m c main_v7) (funext fun a => Fin.ext ?_)
  match a with
  | ⟨0, _⟩ => show win0_4.index t (0 : Fin 2) * 512 + 1 * (j 0).val = (j 0).val; omega
  | ⟨1, _⟩ => show win0_4.index t (1 : Fin 2) * 128 + 1 * (j 1).val = (j 1).val; omega

theorem iblk5_eq (c : Dev nD) (t : Fin cfg0.N) : (iblk m c 5 t : Vec F S1x128 .f32) = V m c main_v8 := by
  obtain ⟨-, -, -, -, -, -, -, -, -, -, e0, e1, -⟩ := idx_facts t
  funext j
  show V m c main_v8 (((cfg0.win 5).blk t).view.emb j) = V m c main_v8 j
  refine congrArg (V m c main_v8) (funext fun a => Fin.ext ?_)
  match a with
  | ⟨0, _⟩ => show win0_5.index t (0 : Fin 2) * 1 + 1 * (j 0).val = (j 0).val; omega
  | ⟨1, _⟩ => show win0_5.index t (1 : Fin 2) * 128 + 1 * (j 1).val = (j 1).val; omega

/-! ## The arrays the host writes before the region -/

/-- The first weight matrix narrowed to bf16. -/
theorem V_v0 (c : Dev nD) : (V m c main_v0 : Vec F S3072x3072 .bf16)
    = truncf .bf16 (m ((c : Thread nD τ).loc main_arg1)) bitsLt_bf16_f32 := by
  dsimp only [V, V0]
  simp only [hostOps0, hostOps0_1, hostOps0_2, hostOps0_3, List.flatten_cons, List.flatten_nil, List.append_nil,
    List.cons_append, List.nil_append]
  after_results <;> rfl

/-- The second weight matrix transposed, then narrowed to bf16. -/
theorem V_v2 (c : Dev nD) : (V m c main_v2 : Vec F S3072x512 .bf16)
    = truncf .bf16 (transpose S3072x512 [1, 0] (m ((c : Thread nD τ).loc main_arg2)) transposes_S512x3072_S3072x512_1_0) bitsLt_bf16_f32 := by
  dsimp only [V, V0]
  simp only [hostOps0, hostOps0_1, hostOps0_2, hostOps0_3, List.flatten_cons, List.flatten_nil, List.append_nil,
    List.cons_append, List.nil_append]
  after_results <;> rfl

/-- The second layer's bias as one row. -/
theorem V_v5 (c : Dev nD) : (V m c main_v5 : Vec F S1x512 .f32)
    = shapeCast S1x512 (m ((c : Thread nD τ).loc main_arg3)) shapeCasts_S512_S1x512 := by
  dsimp only [V, V0]
  simp only [hostOps0, hostOps0_1, hostOps0_2, hostOps0_3, List.flatten_cons, List.flatten_nil, List.append_nil,
    List.cons_append, List.nil_append]
  after_results <;> rfl

/-- The third weight matrix transposed, narrowed to bf16, and padded with columns 10 to 127. -/
theorem V_v7 (c : Dev nD) : (V m c main_v7 : Vec F S512x128 .bf16)
    = pad S512x128 ![0, 0] ![0, 118] ![0, 0] (truncf .bf16 (transpose S512x10 [1, 0] (m ((c : Thread nD τ).loc main_arg4)) transposes_S10x512_S512x10_1_0) bitsLt_bf16_f32)
        (sitofp .bf16 (constantI S_ 32 0#32)) pads_S512x10_S512x128_000_01180 h_S_ := by
  dsimp only [V, V0]
  simp only [hostOps0, hostOps0_1, hostOps0_2, hostOps0_3, List.flatten_cons, List.flatten_nil, List.append_nil,
    List.cons_append, List.nil_append]
  after_results <;> rfl

/-- The third layer's bias as one row, padded with columns 10 to 127. -/
theorem V_v8 (c : Dev nD) : (V m c main_v8 : Vec F S1x128 .f32)
    = pad S1x128 ![0, 0] ![0, 118] ![0, 0] (shapeCast S1x10 (m ((c : Thread nD τ).loc main_arg5)) shapeCasts_S10_S1x10)
        (sitofp .f32 (constantI S_ 32 0#32)) pads_S1x10_S1x128_000_01180 h_S_ := by
  dsimp only [V, V0]
  simp only [hostOps0, hostOps0_1, hostOps0_2, hostOps0_3, List.flatten_cons, List.flatten_nil, List.append_nil,
    List.cons_append, List.nil_append]
  after_results <;> rfl

end Cert.KernelIdeal.Net

end
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.LibHostLin.lean ====
/-
  The host's dense layer, read at an entry.

  On the extended reals the host computes a dense layer of an [N, K] array x as max (x · W + b, 0): a product of plain
  dimension numbers, the bias vector b : [C] spread first to a row [1, C] and then over the N rows, and the maximum with
  the zero scalar spread over [N, C]. At the entry (p, q) that is max ((∑ k, x (p, k) · W (k, q)) + b q) 0; without the
  maximum, (∑ k, x (p, k) · W (k, q)) + b q. A bias vector reshaped to a row has entry (0, q) equal to entry q. The
  extents are arbitrary.
-/
import Idealize.ShloMosaic.Lib.ValueLayout
import Idealize.ShloMosaic.Lib.Pipeline.Value
import proofs.«119323_j23476291240731_2_alg».proof.Proof.LibPlainDot

noncomputable section

namespace HostLin

open Idealize.ShloMosaic Idealize.ShloMosaic.ValueIdx
open scoped BigOperators

variable {α : Type}

/-- A vector spread to a row and then over N rows: entry (p, q) is entry q. -/
theorem bias_bcast_apply {N C : Nat}
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (b : (⟨1, ![C]⟩ : Shape).Idx → α) (p : Fin N) (q : Fin C) :
    broadcastInDim ⟨2, ![N, C]⟩ ![0, 1] h2 (broadcastInDim ⟨2, ![1, C]⟩ ![1] h1 b) (ix2 p q) = b (ix1 q) := by
  rw [broadcastInDim_apply ![0, 1] h2 _ (ix2 p q) (ix2 (0 : Fin 1) q) (fun a => by
    match a with
    | ⟨0, _⟩ => simp [ix2]
    | ⟨1, _⟩ =>
      show q.val = if C = 1 then 0 else q.val
      split_ifs with hC
      · subst hC; omega
      · rfl)]
  rw [broadcastInDim_apply ![1] h1 b (ix2 (0 : Fin 1) q) (ix1 q) (fun a => by
    match a with
    | ⟨0, _⟩ =>
      show q.val = if C = 1 then 0 else q.val
      split_ifs with hC
      · subst hC; omega
      · rfl)]

/-- A scalar spread over a shape is that scalar at every index. -/
theorem scalar_bcast_apply {t : Shape} (h : (⟨0, ![]⟩ : Shape).BroadcastsInDim t (![] : Fin 0 → Fin t.rank))
    (y : (⟨0, ![]⟩ : Shape).Idx → α) (i : t.Idx) : broadcastInDim t ![] h y i = y ix0 :=
  broadcastInDim_apply ![] h y i ix0 (fun a => a.elim0)

/-- A vector reshaped to a row: entry (0, q) is entry q. -/
theorem row_apply {C : Nat} (h : (⟨1, ![C]⟩ : Shape).ShapeCasts ⟨2, ![1, C]⟩) (b : (⟨1, ![C]⟩ : Shape).Idx → α) (q : Fin C) :
    shapeCast ⟨2, ![1, C]⟩ b h (ix2 (0 : Fin 1) q) = b (ix1 q) :=
  shapeCast_a_1a_apply b h 0 q

/-- The host's affine layer x · W + b at (p, q). -/
theorem affine_apply {N K C : Nat} (d : DotDims ⟨2, ![N, K]⟩ ⟨2, ![K, C]⟩ ⟨2, ![N, C]⟩) (hd : d = DotDims.plain N K C)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (x : FVec Ideal ⟨2, ![N, K]⟩ .f32) (W : FVec Ideal ⟨2, ![K, C]⟩ .f32) (b : FVec Ideal ⟨1, ![C]⟩ .f32) (p : Fin N) (q : Fin C) :
    addf (Host.dotGeneral d none x W) (broadcastInDim ⟨2, ![N, C]⟩ ![0, 1] h2 (broadcastInDim ⟨2, ![1, C]⟩ ![1] h1 b)) (ix2 p q)
      = (∑ k : Fin K, x (ix2 p k) * W (ix2 k q)) + b (ix1 q) := by
  subst hd
  rw [addf_apply, bias_bcast_apply]
  exact congrArg (· + b (ix1 q)) (Cert.PlainDot.dotGeneral_apply none .single x W p q)

/-- The host's dense layer max (x · W + b, 0) at (p, q). -/
theorem relu_apply {N K C : Nat} (d : DotDims ⟨2, ![N, K]⟩ ⟨2, ![K, C]⟩ ⟨2, ![N, C]⟩) (hd : d = DotDims.plain N K C)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (h0 : (⟨0, ![]⟩ : Shape).BroadcastsInDim ⟨2, ![N, C]⟩ (![] : Fin 0 → Fin 2))
    (x : FVec Ideal ⟨2, ![N, K]⟩ .f32) (W : FVec Ideal ⟨2, ![K, C]⟩ .f32) (b : FVec Ideal ⟨1, ![C]⟩ .f32) (p : Fin N) (q : Fin C) :
    maximumf (addf (Host.dotGeneral d none x W) (broadcastInDim ⟨2, ![N, C]⟩ ![0, 1] h2 (broadcastInDim ⟨2, ![1, C]⟩ ![1] h1 b)))
        (broadcastInDim ⟨2, ![N, C]⟩ ![] h0 (constant (F := Ideal) ⟨0, ![]⟩ .f32 0x00000000#32)) (ix2 p q)
      = max ((∑ k : Fin K, x (ix2 p k) * W (ix2 k q)) + b (ix1 q)) 0 := by
  rw [maximumf_apply, affine_apply d hd h1 h2, scalar_bcast_apply, constant_apply]
  exact congrArg (max _) Ideal.ofBits_zero_f32

end HostLin

end
-- ==== Proof.LibSumBlocks.lean ====
/-
  A sum over `n * b` consecutive indices is the sum, over `n` blocks, of the sums over the `b` indices of each
  block: index `e` is `b * j + k` for exactly one block `j < n` and one offset `k < b`. This holds in every additive
  commutative monoid — only commutativity and associativity of the addition are used — so in particular on the
  extended reals, where no finiteness is needed.
-/
import Mathlib.Algebra.BigOperators.Fin
import Mathlib.Logic.Equiv.Fin.Basic

namespace SumBlocks

open Finset

/-- `∑_{e < n·b} f e = ∑_{j < n} ∑_{k < b} f (b·j + k)`: the indices below `n · b` are the pairs (block, offset). -/
theorem sum_mul_eq_sum_blocks {M : Type*} [AddCommMonoid M] (n b : ℕ) (f : ℕ → M) :
    ∑ e : Fin (n * b), f e.val = ∑ j : Fin n, ∑ k : Fin b, f (b * j.val + k.val) := by
  rw [← (finProdFinEquiv (m := n) (n := b)).sum_comp (fun e : Fin (n * b) => f e.val), Fintype.sum_prod_type]
  refine Finset.sum_congr rfl fun j _ => Finset.sum_congr rfl fun k _ => ?_
  exact congrArg f (Nat.add_comm _ _)

/-- Three blocks, with the left-nested grouping in which a running total takes them up one after the other. -/
theorem sum_three_blocks {M : Type*} [AddCommMonoid M] (b : ℕ) (f : ℕ → M) :
    ∑ e : Fin (3 * b), f e.val
      = ((∑ k : Fin b, f (b * 0 + k.val)) + ∑ k : Fin b, f (b * 1 + k.val)) + ∑ k : Fin b, f (b * 2 + k.val) := by
  rw [sum_mul_eq_sum_blocks 3 b f, Fin.sum_univ_three]
  rfl

end SumBlocks
-- ==== Proof.LibBlockSum.lean ====
/-
  A sum over an index type of n · b elements, taken block by block: for any additive commutative monoid and any function on
  Fin N with N = n · b, the total is the sum over the n blocks of the sums over the b elements of each block, element
  (s, r) being the one at position b · s + r.
-/
import Mathlib.Algebra.BigOperators.Fin
import Mathlib.Logic.Equiv.Fin.Basic
import proofs.«119323_j23476291240731_2_alg».proof.Proof.LibSumBlocks

namespace BlockSum

open Finset

theorem pos_lt {n b : ℕ} (s : Fin n) (r : Fin b) : b * s.val + r.val < n * b := by
  have h1 : s.val + 1 ≤ n := s.isLt
  have h2 : r.val < b := r.isLt
  have h3 : b * (s.val + 1) ≤ b * n := Nat.mul_le_mul_left _ h1
  rw [Nat.mul_add_one] at h3
  rw [Nat.mul_comm n b]
  omega

/-- The total over Fin N, N = n · b, block by block. -/
theorem sum_eq_sum_blocks {M : Type*} [AddCommMonoid M] (n b N : ℕ) (hN : n * b = N) (F : Fin N → M) :
    ∑ e : Fin N, F e = ∑ s : Fin n, ∑ r : Fin b, F ⟨b * s.val + r.val, hN ▸ pos_lt s r⟩ := by
  subst hN
  have h := SumBlocks.sum_mul_eq_sum_blocks n b (fun e => if h : e < n * b then F ⟨e, h⟩ else 0)
  have hl : ∑ e : Fin (n * b), F e = ∑ e : Fin (n * b), (fun e => if h : e < n * b then F ⟨e, h⟩ else 0) e.val :=
    Finset.sum_congr rfl fun e _ => by simp only [e.isLt, dite_true]
  rw [hl, h]
  refine Finset.sum_congr rfl fun s _ => Finset.sum_congr rfl fun r _ => ?_
  simp only [pos_lt s r, dite_true]

end BlockSum
-- ==== Proof.LibMlp.lean ====
/-
  A three-layer network read at an entry.

  The network sends an input array x : [B, K] to  max ((x · W) · fwᵀ + fb, 0) · lwᵀ + lb : a first product with
  W : [K, N] (no bias, no activation), a second with the transpose of fw : [FC, N] plus the bias fb : [FC] clamped below
  at zero, a third with the transpose of lw : [C, FC] plus the bias lb : [C]. `out` is that function of the six arrays
  on the extended reals, entry by entry. Two texts of it are read here at an entry (p, q), for arbitrary extents:
  the host's (three dot_generals of plain dimension numbers, the transposes, the biases spread over the rows), which is
  `out` itself (`host_eq`); and the three values a tiled kernel body stores — the zero the accumulator is reset to
  (`zeros_apply`), one accumulation step acc + a · w of an [R, K] block with a [K, N] block (`step_apply`), and the
  head max (h · fT + fb, 0) · lT + lb of a finished hidden block h (`head_apply`) —, where changes of float format
  are the identity and each product into the zero accumulator is the plain sum over the contracted axis. `tiled` is the
  network over the operands such a kernel is handed (weights already transposed, biases as rows); `head_eq_tiled` and
  `tiled_eq_out` join the head of a finished hidden block to `tiled`, and `tiled` to `out`; `dot_blocks` takes a product
  block by block along its contracted axis.
-/
import Idealize.ShloMosaic.PureOps.Ideal.Laws
import Idealize.ShloMosaic.Lib.ValueIdx
import Idealize.ShloMosaic.Lib.ValueLayout
import Idealize.ShloMosaic.Lib.Pipeline.Value
import proofs.«119323_j23476291240731_2_alg».proof.Proof.LibPlainDot
import proofs.«119323_j23476291240731_2_alg».proof.Proof.LibHostLin
import proofs.«119323_j23476291240731_2_alg».proof.Proof.LibBlockSum

noncomputable section

namespace Mlp

open Idealize.ShloMosaic Idealize.ShloMosaic.ValueIdx
open scoped BigOperators

/-- The network on whole arrays: entry (p, q) of the result is
    (∑ r, max ((∑ j, (∑ k, x (p, k) · W (k, j)) · fw (r, j)) + fb r) 0 · lw (q, r)) + lb q. -/
def out {B K N FC C : Nat} (x : (⟨2, ![B, K]⟩ : Shape).Idx → EReal) (W : (⟨2, ![K, N]⟩ : Shape).Idx → EReal)
    (fw : (⟨2, ![FC, N]⟩ : Shape).Idx → EReal) (fb : (⟨1, ![FC]⟩ : Shape).Idx → EReal)
    (lw : (⟨2, ![C, FC]⟩ : Shape).Idx → EReal) (lb : (⟨1, ![C]⟩ : Shape).Idx → EReal) : (⟨2, ![B, C]⟩ : Shape).Idx → EReal :=
  fun i => (∑ r : Fin FC, max ((∑ j : Fin N, (∑ k : Fin K, x (ix2 (i 0) k) * W (ix2 k j)) * fw (ix2 r j)) + fb (ix1 r)) 0
      * lw (ix2 (i 1) r)) + lb (ix1 (i 1))

/-- `out` at an entry given by its coordinates. -/
theorem out_apply {B K N FC C : Nat} (x : (⟨2, ![B, K]⟩ : Shape).Idx → EReal) (W : (⟨2, ![K, N]⟩ : Shape).Idx → EReal)
    (fw : (⟨2, ![FC, N]⟩ : Shape).Idx → EReal) (fb : (⟨1, ![FC]⟩ : Shape).Idx → EReal)
    (lw : (⟨2, ![C, FC]⟩ : Shape).Idx → EReal) (lb : (⟨1, ![C]⟩ : Shape).Idx → EReal) (p : Fin B) (q : Fin C) :
    out x W fw fb lw lb (ix2 p q)
      = (∑ r : Fin FC, max ((∑ j : Fin N, (∑ k : Fin K, x (ix2 p k) * W (ix2 k j)) * fw (ix2 r j)) + fb (ix1 r)) 0
          * lw (ix2 q r)) + lb (ix1 q) := rfl

/-- The host's text of the network — three products of plain dimension numbers, the two weight matrices transposed
    first, each bias vector spread to a row and then over the rows, the maximum with the zero scalar spread over the
    hidden layer — is `out`. -/
theorem host_eq {B K N FC C : Nat}
    (d1 : DotDims ⟨2, ![B, K]⟩ ⟨2, ![K, N]⟩ ⟨2, ![B, N]⟩) (hd1 : d1 = DotDims.plain B K N)
    (d2 : DotDims ⟨2, ![B, N]⟩ ⟨2, ![N, FC]⟩ ⟨2, ![B, FC]⟩) (hd2 : d2 = DotDims.plain B N FC)
    (d3 : DotDims ⟨2, ![B, FC]⟩ ⟨2, ![FC, C]⟩ ⟨2, ![B, C]⟩) (hd3 : d3 = DotDims.plain B FC C)
    (ht1 : (⟨2, ![FC, N]⟩ : Shape).Transposes [1, 0] ⟨2, ![N, FC]⟩)
    (ht2 : (⟨2, ![C, FC]⟩ : Shape).Transposes [1, 0] ⟨2, ![FC, C]⟩)
    (hf1 : (⟨1, ![FC]⟩ : Shape).BroadcastsInDim ⟨2, ![1, FC]⟩ (![1] : Fin 1 → Fin 2))
    (hf2 : (⟨2, ![1, FC]⟩ : Shape).BroadcastsInDim ⟨2, ![B, FC]⟩ (![0, 1] : Fin 2 → Fin 2))
    (hz : (⟨0, ![]⟩ : Shape).BroadcastsInDim ⟨2, ![B, FC]⟩ (![] : Fin 0 → Fin 2))
    (hl1 : (⟨1, ![C]⟩ : Shape).BroadcastsInDim ⟨2, ![1, C]⟩ (![1] : Fin 1 → Fin 2))
    (hl2 : (⟨2, ![1, C]⟩ : Shape).BroadcastsInDim ⟨2, ![B, C]⟩ (![0, 1] : Fin 2 → Fin 2))
    (x : FVec Ideal ⟨2, ![B, K]⟩ .f32) (W : FVec Ideal ⟨2, ![K, N]⟩ .f32) (fw : FVec Ideal ⟨2, ![FC, N]⟩ .f32)
    (fb : FVec Ideal ⟨1, ![FC]⟩ .f32) (lw : FVec Ideal ⟨2, ![C, FC]⟩ .f32) (lb : FVec Ideal ⟨1, ![C]⟩ .f32) :
    addf (Host.dotGeneral d3 none
        (maximumf (addf (Host.dotGeneral d2 none (Host.dotGeneral d1 none x W) (transpose ⟨2, ![N, FC]⟩ [1, 0] fw ht1))
            (broadcastInDim ⟨2, ![B, FC]⟩ ![0, 1] hf2 (broadcastInDim ⟨2, ![1, FC]⟩ ![1] hf1 fb)))
          (broadcastInDim ⟨2, ![B, FC]⟩ ![] hz (constant (F := Ideal) ⟨0, ![]⟩ .f32 0x00000000#32)))
        (transpose ⟨2, ![FC, C]⟩ [1, 0] lw ht2))
      (broadcastInDim ⟨2, ![B, C]⟩ ![0, 1] hl2 (broadcastInDim ⟨2, ![1, C]⟩ ![1] hl1 lb))
    = out x W fw fb lw lb := by
  funext i
  obtain ⟨p, q, rfl⟩ : ∃ (p : Fin B) (q : Fin C), i = ix2 p q := ⟨i 0, i 1, eq_ix2 i⟩
  rw [HostLin.affine_apply d3 hd3 hl1 hl2, out_apply]
  refine congrArg (· + lb (ix1 q)) (Finset.sum_congr rfl fun r _ => ?_)
  rw [HostLin.relu_apply d2 hd2 hf1 hf2 hz, transpose_ix2_apply]
  refine congrArg (fun z => max (z + fb (ix1 r)) 0 * lw (ix2 q r)) (Finset.sum_congr rfl fun j _ => ?_)
  rw [transpose_ix2_apply]
  subst hd1
  exact congrArg (· * fw (ix2 r j)) (Cert.PlainDot.dotGeneral_apply none .single x W p j)

/-! ## The kernel body's three stored values, each read at an entry -/

/-- A product of plain dimension numbers into the zero accumulator at (p, q), whatever the operands' formats. -/
theorem matmul_zero_apply {M K N : Nat} {φ₁ φ₂ : FTy} (d : DotDims ⟨2, ![M, K]⟩ ⟨2, ![K, N]⟩ ⟨2, ![M, N]⟩)
    (hd : d = DotDims.plain M K N) (prec : Option ContractPrecision) (lhs : FVec Ideal ⟨2, ![M, K]⟩ φ₁)
    (rhs : FVec Ideal ⟨2, ![K, N]⟩ φ₂) (p : Fin M) (q : Fin N) :
    matmul d prec lhs rhs (constant (F := Ideal) ⟨2, ![M, N]⟩ .f32 0x00000000#32) (ix2 p q)
      = ∑ k : Fin K, lhs (ix2 p k) * rhs (ix2 k q) := by
  subst hd
  show FloatOps.matmul (DotDims.plain M K N) prec lhs rhs (constant (F := Ideal) ⟨2, ![M, N]⟩ .f32 0x00000000#32) (ix2 p q) = _
  rw [Ideal.matmul_constant_zero_apply]
  exact Cert.PlainDot.contraction_eq lhs rhs p q

/-- The zero array the accumulator is reset to. -/
theorem zeros_apply {s : Shape} (h : s.ShapeCasts s) (i : s.Idx) :
    shapeCast s (broadcast s (Scalar.ofBits (F := Ideal) .f32 0x00000000#32)) h i = 0 := by
  rw [shapeCast_self, broadcast_apply]
  exact Ideal.ofBits_zero_f32

/-- One accumulation step: the accumulator plus the product of an [R, K] block (narrowed to bf16) with a [K, N] block,
    at (p, q), is the accumulator's entry plus ∑ l, a (p, l) · w (l, q). -/
theorem step_apply {R K N : Nat} (d : DotDims ⟨2, ![R, K]⟩ ⟨2, ![K, N]⟩ ⟨2, ![R, N]⟩) (hd : d = DotDims.plain R K N)
    (hbits : FTy.bits .bf16 < FTy.bits .f32)
    (hW : (⟨2, ![K, N]⟩ : Shape).ShapeCasts ⟨2, ![K, N]⟩) (hO : (⟨2, ![R, N]⟩ : Shape).ShapeCasts ⟨2, ![R, N]⟩)
    (a : FVec Ideal ⟨2, ![R, K]⟩ .f32) (acc : FVec Ideal ⟨2, ![R, N]⟩ .f32) (w : FVec Ideal ⟨2, ![K, N]⟩ .bf16)
    (p : Fin R) (q : Fin N) :
    shapeCast ⟨2, ![R, N]⟩ (addf acc (matmul d none (truncf .bf16 a hbits) (shapeCast ⟨2, ![K, N]⟩ w hW)
        (constant (F := Ideal) ⟨2, ![R, N]⟩ .f32 0x00000000#32))) hO (ix2 p q)
      = acc (ix2 p q) + ∑ l : Fin K, a (ix2 p l) * w (ix2 l q) := by
  rw [shapeCast_self, addf_apply, shapeCast_self]
  exact congrArg (acc (ix2 p q) + ·) (matmul_zero_apply d hd none (truncf .bf16 a hbits) w p q)

/-- The head: from the finished hidden block h, max (h · fT + fb, 0) · lT + lb at (p, q), the two products'
    left operands narrowed to bf16, each bias a [1, ·] row broadcast over the rows. -/
theorem head_apply {R N FC CP : Nat}
    (d2 : DotDims ⟨2, ![R, N]⟩ ⟨2, ![N, FC]⟩ ⟨2, ![R, FC]⟩) (hd2 : d2 = DotDims.plain R N FC)
    (d3 : DotDims ⟨2, ![R, FC]⟩ ⟨2, ![FC, CP]⟩ ⟨2, ![R, CP]⟩) (hd3 : d3 = DotDims.plain R FC CP)
    (hbits : FTy.bits .bf16 < FTy.bits .f32)
    (hF : (⟨2, ![N, FC]⟩ : Shape).ShapeCasts ⟨2, ![N, FC]⟩) (hb : (⟨2, ![1, FC]⟩ : Shape).ShapeCasts ⟨2, ![1, FC]⟩)
    (hbb : (⟨2, ![1, FC]⟩ : Shape).Broadcasts ⟨2, ![R, FC]⟩)
    (hL : (⟨2, ![FC, CP]⟩ : Shape).ShapeCasts ⟨2, ![FC, CP]⟩) (hl : (⟨2, ![1, CP]⟩ : Shape).ShapeCasts ⟨2, ![1, CP]⟩)
    (hlb : (⟨2, ![1, CP]⟩ : Shape).Broadcasts ⟨2, ![R, CP]⟩)
    (h : FVec Ideal ⟨2, ![R, N]⟩ .f32) (fT : FVec Ideal ⟨2, ![N, FC]⟩ .bf16) (fb : FVec Ideal ⟨2, ![1, FC]⟩ .f32)
    (lT : FVec Ideal ⟨2, ![FC, CP]⟩ .bf16) (lb : FVec Ideal ⟨2, ![1, CP]⟩ .f32) (p : Fin R) (q : Fin CP) :
    addf (matmul d3 none
        (truncf .bf16 (maximumf (addf (matmul d2 none (truncf .bf16 h hbits) (shapeCast ⟨2, ![N, FC]⟩ fT hF)
              (constant (F := Ideal) ⟨2, ![R, FC]⟩ .f32 0x00000000#32))
            (broadcastTo ⟨2, ![R, FC]⟩ (shapeCast ⟨2, ![1, FC]⟩ fb hb) hbb))
          (broadcast ⟨2, ![R, FC]⟩ (Scalar.ofBits (F := Ideal) .f32 0x00000000#32))) hbits)
        (shapeCast ⟨2, ![FC, CP]⟩ lT hL) (constant (F := Ideal) ⟨2, ![R, CP]⟩ .f32 0x00000000#32))
      (broadcastTo ⟨2, ![R, CP]⟩ (shapeCast ⟨2, ![1, CP]⟩ lb hl) hlb) (ix2 p q)
      = (∑ r : Fin FC, max ((∑ j : Fin N, h (ix2 p j) * fT (ix2 j r)) + fb (ix2 (0 : Fin 1) r)) 0 * lT (ix2 r q))
          + lb (ix2 (0 : Fin 1) q) := by
  rw [addf_apply, broadcastTo_1b_ab_apply, shapeCast_self lb hl, shapeCast_self lT hL, matmul_zero_apply d3 hd3]
  refine congrArg (· + lb (ix2 (0 : Fin 1) q)) (Finset.sum_congr rfl fun r _ => ?_)
  refine congrArg (· * lT (ix2 r q)) ?_
  show maximumf (F := Ideal) _ _ (ix2 p r) = _
  rw [maximumf_apply, addf_apply, broadcast_apply, broadcastTo_1b_ab_apply, shapeCast_self fb hb, shapeCast_self fT hF,
    matmul_zero_apply d2 hd2]
  exact congrArg (max _) Ideal.ofBits_zero_f32

/-- Entry (p, q) of the product a · w of an [M, K] array with a [K, N] array. -/
def dot {M K N : Nat} (a : (⟨2, ![M, K]⟩ : Shape).Idx → EReal) (w : (⟨2, ![K, N]⟩ : Shape).Idx → EReal) (p : Fin M) (q : Fin N) :
    EReal :=
  ∑ l : Fin K, a (ix2 p l) * w (ix2 l q)

/-- `dot` unfolded. -/
theorem dot_def {M K N : Nat} (a : (⟨2, ![M, K]⟩ : Shape).Idx → EReal) (w : (⟨2, ![K, N]⟩ : Shape).Idx → EReal) (p : Fin M)
    (q : Fin N) : dot a w p q = ∑ l : Fin K, a (ix2 p l) * w (ix2 l q) := rfl

/-- The product taken block by block along the contracted axis: with K = nb · bs, entry (p, q) of a · w is the sum over
    the nb blocks of the entries of the blocks' products. Only the regrouping of a finite sum is used. -/
theorem dot_blocks {M K N : Nat} (nb bs : Nat) (hK : nb * bs = K) (a : (⟨2, ![M, K]⟩ : Shape).Idx → EReal)
    (w : (⟨2, ![K, N]⟩ : Shape).Idx → EReal) (p : Fin M) (q : Fin N) :
    dot a w p q = ∑ s : Fin nb, ∑ r : Fin bs,
      a (ix2 p ⟨bs * s.val + r.val, hK ▸ BlockSum.pos_lt s r⟩) * w (ix2 ⟨bs * s.val + r.val, hK ▸ BlockSum.pos_lt s r⟩ q) :=
  BlockSum.sum_eq_sum_blocks nb bs K hK (fun l => a (ix2 p l) * w (ix2 l q))

/-! ## The network over the operands a tiled kernel is handed -/

/-- The network over operands as a tiled kernel is handed them — the second and third weight matrices already
    transposed (the third possibly with more columns than the network has outputs), the biases as [1, ·] rows:
    entry (p, q) is (∑ r, max ((∑ j, (∑ k, x (p, k) · W (k, j)) · fT (j, r)) + fb (0, r)) 0 · lT (r, q)) + lb (0, q). -/
def tiled {B K N FC CP : Nat} (x : (⟨2, ![B, K]⟩ : Shape).Idx → EReal) (W : (⟨2, ![K, N]⟩ : Shape).Idx → EReal)
    (fT : (⟨2, ![N, FC]⟩ : Shape).Idx → EReal) (fb : (⟨2, ![1, FC]⟩ : Shape).Idx → EReal)
    (lT : (⟨2, ![FC, CP]⟩ : Shape).Idx → EReal) (lb : (⟨2, ![1, CP]⟩ : Shape).Idx → EReal) : (⟨2, ![B, CP]⟩ : Shape).Idx → EReal :=
  fun i => (∑ r : Fin FC, max ((∑ j : Fin N, (∑ k : Fin K, x (ix2 (i 0) k) * W (ix2 k j)) * fT (ix2 j r)) + fb (ix2 (0 : Fin 1) r)) 0
      * lT (ix2 r (i 1))) + lb (ix2 (0 : Fin 1) (i 1))

/-- `tiled` at an entry given by its coordinates. -/
theorem tiled_apply {B K N FC CP : Nat} (x : (⟨2, ![B, K]⟩ : Shape).Idx → EReal) (W : (⟨2, ![K, N]⟩ : Shape).Idx → EReal)
    (fT : (⟨2, ![N, FC]⟩ : Shape).Idx → EReal) (fb : (⟨2, ![1, FC]⟩ : Shape).Idx → EReal)
    (lT : (⟨2, ![FC, CP]⟩ : Shape).Idx → EReal) (lb : (⟨2, ![1, CP]⟩ : Shape).Idx → EReal) (p : Fin B) (q : Fin CP) :
    tiled x W fT fb lT lb (ix2 p q)
      = (∑ r : Fin FC, max ((∑ j : Fin N, (∑ k : Fin K, x (ix2 p k) * W (ix2 k j)) * fT (ix2 j r)) + fb (ix2 (0 : Fin 1) r)) 0
          * lT (ix2 r q)) + lb (ix2 (0 : Fin 1) q) := rfl

/-- The head of a hidden block h whose row p is row P of x · W is row P of `tiled`. -/
theorem head_eq_tiled {R B K N FC CP : Nat} (h : (⟨2, ![R, N]⟩ : Shape).Idx → EReal)
    (x : (⟨2, ![B, K]⟩ : Shape).Idx → EReal) (W : (⟨2, ![K, N]⟩ : Shape).Idx → EReal)
    (fT : (⟨2, ![N, FC]⟩ : Shape).Idx → EReal) (fb : (⟨2, ![1, FC]⟩ : Shape).Idx → EReal)
    (lT : (⟨2, ![FC, CP]⟩ : Shape).Idx → EReal) (lb : (⟨2, ![1, CP]⟩ : Shape).Idx → EReal) (p : Fin R) (P : Fin B) (q : Fin CP)
    (hh : ∀ j : Fin N, h (ix2 p j) = ∑ k : Fin K, x (ix2 P k) * W (ix2 k j)) :
    (∑ r : Fin FC, max ((∑ j : Fin N, h (ix2 p j) * fT (ix2 j r)) + fb (ix2 (0 : Fin 1) r)) 0 * lT (ix2 r q))
        + lb (ix2 (0 : Fin 1) q)
      = tiled x W fT fb lT lb (ix2 P q) := by
  rw [tiled_apply]
  refine congrArg (· + lb (ix2 (0 : Fin 1) q)) (Finset.sum_congr rfl fun r _ => ?_)
  refine congrArg (fun z => max (z + fb (ix2 (0 : Fin 1) r)) 0 * lT (ix2 r q)) (Finset.sum_congr rfl fun j _ => ?_)
  rw [hh j]

/-- Where the handed operands are the network's own — fT the transpose of fw, fb2 the row of fb, and at column q'
    lT the transpose of lw's row q and lb2 the entry q of lb — entry (p, q') of `tiled` is entry (p, q) of `out`. -/
theorem tiled_eq_out {B K N FC C CP : Nat} (x : (⟨2, ![B, K]⟩ : Shape).Idx → EReal) (W : (⟨2, ![K, N]⟩ : Shape).Idx → EReal)
    (fT : (⟨2, ![N, FC]⟩ : Shape).Idx → EReal) (fb2 : (⟨2, ![1, FC]⟩ : Shape).Idx → EReal)
    (lT : (⟨2, ![FC, CP]⟩ : Shape).Idx → EReal) (lb2 : (⟨2, ![1, CP]⟩ : Shape).Idx → EReal)
    (fw : (⟨2, ![FC, N]⟩ : Shape).Idx → EReal) (fb : (⟨1, ![FC]⟩ : Shape).Idx → EReal)
    (lw : (⟨2, ![C, FC]⟩ : Shape).Idx → EReal) (lb : (⟨1, ![C]⟩ : Shape).Idx → EReal) (p : Fin B) (q : Fin C) (q' : Fin CP)
    (hf : ∀ (j : Fin N) (r : Fin FC), fT (ix2 j r) = fw (ix2 r j)) (hb : ∀ r : Fin FC, fb2 (ix2 (0 : Fin 1) r) = fb (ix1 r))
    (hl : ∀ r : Fin FC, lT (ix2 r q') = lw (ix2 q r)) (hlb : lb2 (ix2 (0 : Fin 1) q') = lb (ix1 q)) :
    tiled x W fT fb2 lT lb2 (ix2 p q') = out x W fw fb lw lb (ix2 p q) := by
  rw [tiled_apply, out_apply, hlb]
  refine congrArg (· + lb (ix1 q)) (Finset.sum_congr rfl fun r _ => ?_)
  rw [hl r, hb r]
  refine congrArg (fun z => max (z + fb (ix1 r)) 0 * lw (ix2 q r)) (Finset.sum_congr rfl fun j _ => ?_)
  rw [hf j r]

end Mlp

end
-- ==== Proof.LibAccumBlocks.lean ====
/-
  A running total that is reset at every p-th step and otherwise takes up one more term: after the step numbered
  `p * j + k` (with `k < p`) it holds the sum of the terms of the steps `p * j, …, p * j + k` — the terms of its own
  period only, whatever was there before the reset. Only commutativity and associativity of the addition are used, so
  the statement holds in every additive commutative monoid; on the extended reals no finiteness is needed.
-/
import Mathlib.Algebra.BigOperators.Fin
import Mathlib.Algebra.BigOperators.Intervals

namespace AccumBlocks

open Finset

/-- `S` is the total after each step (defined for the steps below `N`), `B` the term a step contributes. If a step whose
    number is a multiple of `p` leaves exactly its own term (`hreset`) and every other step adds its term to what the step
    before left (`hstep`), then after step `p * j + k`, `k < p`, the total is `∑_{i ≤ k} B (p * j + i)`. -/
theorem total_eq_sum_range {M : Type*} [AddCommMonoid M] (p N : ℕ) (S : (n : ℕ) → n < N → M) (B : ℕ → M)
    (hreset : ∀ (n : ℕ) (h : n < N), n % p = 0 → S n h = B n)
    (hstep : ∀ (n : ℕ) (h : n + 1 < N), (n + 1) % p ≠ 0 → S (n + 1) h = S n (Nat.lt_of_succ_lt h) + B (n + 1))
    (j : ℕ) : ∀ (k : ℕ), k < p → ∀ (n : ℕ) (h : n < N), n = p * j + k →
      S n h = ∑ i ∈ Finset.range (k + 1), B (p * j + i)
  | 0, _, n, h, hn => by
    subst hn
    rw [hreset _ h (by rw [Nat.add_zero]; exact Nat.mul_mod_right p j), Finset.sum_range_one]
  | k + 1, hk, n, h, hn => by
    subst hn
    have hne : (p * j + k + 1) % p ≠ 0 := by
      rw [Nat.add_assoc, Nat.mul_add_mod, Nat.mod_eq_of_lt hk]
      exact Nat.succ_ne_zero k
    have e := hstep (p * j + k) h hne
    rw [show S (p * j + (k + 1)) h = S (p * j + k + 1) h from rfl, e,
      total_eq_sum_range p N S B hreset hstep j k (Nat.lt_of_succ_lt hk) (p * j + k) _ rfl,
      Finset.sum_range_succ (fun i => B (p * j + i)) (k + 1)]
    rfl

/-- The same with the sum written over `Fin (k + 1)`. -/
theorem total_eq_sum_fin {M : Type*} [AddCommMonoid M] (p N : ℕ) (S : (n : ℕ) → n < N → M) (B : ℕ → M)
    (hreset : ∀ (n : ℕ) (h : n < N), n % p = 0 → S n h = B n)
    (hstep : ∀ (n : ℕ) (h : n + 1 < N), (n + 1) % p ≠ 0 → S (n + 1) h = S n (Nat.lt_of_succ_lt h) + B (n + 1))
    (j k : ℕ) (hk : k < p) (n : ℕ) (h : n < N) (hn : n = p * j + k) :
    S n h = ∑ i : Fin (k + 1), B (p * j + i.val) := by
  rw [total_eq_sum_range p N S B hreset hstep j k hk n h hn, Finset.sum_range]

end AccumBlocks
-- ==== Proof.Accum.lean ====
/-
  The running block of the first product, in closed form.

  Over the six points 6·b, …, 6·b + 5 of one row block the body accumulates, in its scratch buffer, the products of
  the six [1024, 512] blocks of x with the six [512, 3072] blocks of the first weight matrix: reset to 0 + (first
  product) at point 6·b, one product added at each later point. So after point 6·b + k entry (p, q) of the scratch is
  the sum over i ≤ k of ∑ l, x (1024·b + p, 512·i + l) · W (512·i + l, q), and after point 6·b + 5 it is the whole
  sum over the 3072 contraction positions: a sum regrouped into six consecutive blocks, which needs commutativity and
  associativity of the addition only.
-/
import proofs.«119323_j23476291240731_2_alg».proof.Proof.Pieces
import proofs.«119323_j23476291240731_2_alg».proof.Proof.Blocks
import proofs.«119323_j23476291240731_2_alg».proof.Proof.LibMlp
import proofs.«119323_j23476291240731_2_alg».proof.Proof.LibBlockSum
import proofs.«119323_j23476291240731_2_alg».proof.Proof.LibAccumBlocks

set_option maxRecDepth 16384

noncomputable section

open Idealize.ShloMosaic Idealize.ShloMosaic.TcCoe Idealize.SL.Sem Idealize.ShloMosaic.ValueIdx
open scoped BigOperators

namespace Cert.KernelIdeal.Net

open Cert.KernelIdeal Cert.KernelIdeal.Gen

variable (m : (ℓ : Loc nD τ sig) → Buf (Elt Ideal) ℓ)

/-! ## The body's three stored values at an entry -/

/-- The reset value is zero everywhere. -/
theorem pay1_apply (p : Fin 1024) (q : Fin 3072) : k0_pay1 (F := Ideal) (ix2 p q) = 0 :=
  Mlp.zeros_apply shapeCasts_S1024x3072_S1024x3072 (ix2 p q)

/-- One accumulation step at (p, q). -/
theorem pay2_apply (v3 : Vec Ideal S1024x512 .f32) (v5 : Vec Ideal S1024x3072 .f32) (v6 : Vec Ideal S512x3072 .bf16)
    (p : Fin 1024) (q : Fin 3072) :
    k0_pay2 (F := Ideal) v3 v5 v6 (ix2 p q) = v5 (ix2 p q) + ∑ l : Fin 512, v3 (ix2 p l) * v6 (ix2 l q) :=
  Mlp.step_apply dot_S1024x512_S512x3072_S1024x3072_1_0_0_1_n_n rfl bitsLt_bf16_f32 shapeCasts_S512x3072_S512x3072
    shapeCasts_S1024x3072_S1024x3072 v3 v5 v6 p q

/-- The head at (p, q). -/
theorem pay3_apply (v16 : Vec Ideal S1024x3072 .f32) (v18 : Vec Ideal S3072x512 .bf16) (v21 : Vec Ideal S1x512 .f32)
    (v28 : Vec Ideal S512x128 .bf16) (v31 : Vec Ideal S1x128 .f32) (p : Fin 1024) (q : Fin 128) :
    k0_pay3 (F := Ideal) v16 v18 v21 v28 v31 (ix2 p q)
      = (∑ r : Fin 512, max ((∑ j : Fin 3072, v16 (ix2 p j) * v18 (ix2 j r)) + v21 (ix2 (0 : Fin 1) r)) 0 * v28 (ix2 r q))
          + v31 (ix2 (0 : Fin 1) q) :=
  Mlp.head_apply dot_S1024x3072_S3072x512_S1024x512_1_0_0_1_n_n rfl dot_S1024x512_S512x128_S1024x128_1_0_0_1_n_n rfl
    bitsLt_bf16_f32 shapeCasts_S3072x512_S3072x512 shapeCasts_S1x512_S1x512 broadcasts_S1x512_S1024x512
    shapeCasts_S512x128_S512x128 shapeCasts_S1x128_S1x128 broadcasts_S1x128_S1024x128 v16 v18 v21 v28 v31 p q

/-! ## The scratch after each point -/

/-- Entry (p, q) of the product of the two blocks point n is handed (zero beyond the grid). -/
def term (c : Dev nD) (p : Fin 1024) (q : Fin 3072) (n : ℕ) : EReal :=
  if h : n < cfg0.N then Mlp.dot (M := 1024) (K := 512) (N := 3072) (iblk m c 0 ⟨n, h⟩) (iblk m c 1 ⟨n, h⟩) p q else 0

/-- At the first point of a row block the scratch is left at that point's product alone. -/
theorem scratch_reset (c : Dev nD) (p : Fin 1024) (q : Fin 3072) (n : ℕ) (h : n < cfg0.N) (h0 : n % 6 = 0) :
    (outsAt0 m c n h).2 (ix2 p q) = term m c p q n := by
  have h1 : ¬n % 6 = 5 := by omega
  rw [outsAt0_A m c ⟨n, h⟩ h0 h1]
  dsimp only
  refine (congrFun (Pieces.scratch_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) scM0_0 (Memref.isWhole_whole _) ((hcond0_0 ⟨n, h⟩).mpr h0) (fun h' => h1 ((hcond0_1 ⟨n, h⟩).mp h')) (iblk m c 0 ⟨n, h⟩) (iblk m c 1 ⟨n, h⟩) (iblk m c 2 ⟨n, h⟩) (iblk m c 3 ⟨n, h⟩) (iblk m c 4 ⟨n, h⟩) (iblk m c 5 ⟨n, h⟩)) (ix2 p q)).trans ?_
  refine (pay2_apply (iblk m c 0 ⟨n, h⟩) (k0_pay1 (F := Ideal)) (iblk m c 1 ⟨n, h⟩) p q).trans ?_
  rw [pay1_apply, zero_add, term, dif_pos h]
  rfl

/-- At every other point it gains that point's product. -/
theorem scratch_step (c : Dev nD) (p : Fin 1024) (q : Fin 3072) (n : ℕ) (h : n + 1 < cfg0.N) (h0 : (n + 1) % 6 ≠ 0) :
    (outsAt0 m c (n + 1) h).2 (ix2 p q) = (outsAt0 m c n (Nat.lt_of_succ_lt h)).2 (ix2 p q) + term m c p q (n + 1) := by
  by_cases h1 : (n + 1) % 6 = 5
  · rw [outsAt0_C m c ⟨n + 1, h⟩ h0 h1]
    dsimp only
    refine (congrFun (Pieces.scratch_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) (fun h' => h0 ((hcond0_0 ⟨n + 1, h⟩).mp h')) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (outsAt0 m c n (Nat.lt_of_succ_lt h)).2) (ix2 p q)).trans ?_
    refine (pay2_apply (iblk m c 0 ⟨n + 1, h⟩) (outsAt0 m c n (Nat.lt_of_succ_lt h)).2 (iblk m c 1 ⟨n + 1, h⟩) p q).trans ?_
    rw [term, dif_pos h]
    rfl
  · rw [outsAt0_B m c ⟨n + 1, h⟩ h0 h1]
    dsimp only
    refine (congrFun (Pieces.scratch_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) (fun h' => h0 ((hcond0_0 ⟨n + 1, h⟩).mp h')) (fun h' => h1 ((hcond0_1 ⟨n + 1, h⟩).mp h')) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (outsAt0 m c n (Nat.lt_of_succ_lt h)).2) (ix2 p q)).trans ?_
    refine (pay2_apply (iblk m c 0 ⟨n + 1, h⟩) (outsAt0 m c n (Nat.lt_of_succ_lt h)).2 (iblk m c 1 ⟨n + 1, h⟩) p q).trans ?_
    rw [term, dif_pos h]
    rfl

/-- So after point 6·b + k it holds the products of the points 6·b, …, 6·b + k. -/
theorem scratch_sum (c : Dev nD) (p : Fin 1024) (q : Fin 3072) (b k : ℕ) (hk : k < 6) (n : ℕ) (h : n < cfg0.N)
    (hn : n = 6 * b + k) :
    (outsAt0 m c n h).2 (ix2 p q) = ∑ i : Fin (k + 1), term m c p q (6 * b + i.val) :=
  AccumBlocks.total_eq_sum_fin 6 cfg0.N (fun n h => (outsAt0 m c n h).2 (ix2 p q)) (term m c p q)
    (fun n h h0 => scratch_reset m c p q n h h0) (fun n h h0 => scratch_step m c p q n h h0) b k hk n h hn

/-- After the last point of a row block the scratch holds that block of rows of the whole first product. -/
theorem hidden_eq (c : Dev nD) (t : Fin cfg0.N) (h5 : t.val % 6 = 5) (p : Fin 1024) (q : Fin 3072) (P : Fin 16384)
    (hP : P.val = 1024 * (t.val / 6) + p.val) :
    (outsAt0 m c t.val t.isLt).2 (ix2 p q)
      = Mlp.dot (M := 16384) (K := 3072) (N := 3072) (V m c main_arg0) (V m c main_v0) P q := by
  have hN : cfg0.N = 96 := N_0
  have ht := t.isLt
  rw [scratch_sum m c p q (t.val / 6) 5 (by omega) t.val t.isLt (by omega),
    Mlp.dot_blocks 6 512 rfl (V m c main_arg0) (V m c main_v0) P q]
  refine Finset.sum_congr rfl fun i _ => ?_
  have hi6 : i.val < 6 := i.isLt
  have hi : 6 * (t.val / 6) + i.val < cfg0.N := by omega
  rw [term, dif_pos hi, Mlp.dot_def]
  refine Finset.sum_congr rfl fun l _ => ?_
  have hl : l.val < 512 := l.isLt
  exact congrArg₂ (fun a b : EReal => a * b)
    (iblk0_apply m c ⟨6 * (t.val / 6) + i.val, hi⟩ p l P ⟨512 * i.val + l.val, by omega⟩
      (by show P.val = 1024 * ((6 * (t.val / 6) + i.val) / 6) + p.val; omega)
      (by show 512 * i.val + l.val = 512 * ((6 * (t.val / 6) + i.val) % 6) + l.val; omega))
    (iblk1_apply m c ⟨6 * (t.val / 6) + i.val, hi⟩ l q ⟨512 * i.val + l.val, by omega⟩
      (by show 512 * i.val + l.val = 512 * ((6 * (t.val / 6) + i.val) % 6) + l.val; omega))

end Cert.KernelIdeal.Net

end
-- ==== Proof.Final.lean ====
/-
  The kernel's result array, and the program's result.

  Only the last point 6·b + 5 of each row block writes the output window back, and there the body has stored the
  head of the finished hidden block: rows 1024·b … 1024·b + 1023 of the network over the arrays the region was handed
  (`Mlp.tiled`). The sixteen written blocks cover the [16384, 128] array, so after the region it holds that network
  whole. The host then keeps columns 0 to 9, where the padded third layer is the network's own: the program's result is
  `Mlp.out` of its six arguments.
-/
import proofs.«119323_j23476291240731_2_alg».proof.Proof.Accum
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Net

open Cert.KernelIdeal Cert.KernelIdeal.Gen

variable (m : (ℓ : Loc nD τ sig) → Buf (Elt Ideal) ℓ) (ρ : Dev nD → PrngReg)

/-- The network over the arrays the region is handed: what the output window's array ends holding. -/
def outArr (c : Dev nD) : Buf (Elt Ideal) ((c : Thread nD τ).loc main_v9) :=
  Mlp.tiled (B := 16384) (K := 3072) (N := 3072) (FC := 512) (CP := 128) (V m c main_arg0) (V m c main_v0) (V m c main_v2)
    (V m c main_v5) (V m c main_v7) (V m c main_v8)

/-- At the last point of a row block the output block is the head of the scratch as that point leaves it. -/
theorem out_at (c : Dev nD) (t : Fin cfg0.N) (h5 : t.val % 6 = 5) :
    (outsAt0 m c t.val t.isLt).1
      = k0_pay3 (F := Ideal) (outsAt0 m c t.val t.isLt).2 (iblk m c 2 t) (iblk m c 3 t) (iblk m c 4 t) (iblk m c 5 t) := by
  have h0 : ¬t.val % 6 = 0 := by omega
  have hpos : t.val - 1 < cfg0.N := Nat.lt_of_le_of_lt (Nat.sub_le _ _) t.isLt
  have hs : (outsAt0 m c t.val t.isLt).2
      = k0_pay2 (F := Ideal) (iblk m c 0 t) (outsAt0 m c (t.val - 1) hpos).2 (iblk m c 1 t) := by
    rw [outsAt0_C m c t h0 h5]
    dsimp only
    exact Pieces.scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h' => h0 ((hcond0_0 t).mp h')) ((hcond0_1 t).mpr h5) (iblk m c 0 t) (iblk m c 1 t) (iblk m c 2 t) (iblk m c 3 t) (iblk m c 4 t) (iblk m c 5 t) (outsAt0 m c (t.val - 1) hpos).2
  have ho : (outsAt0 m c t.val t.isLt).1
      = k0_pay3 (F := Ideal) (k0_pay2 (F := Ideal) (iblk m c 0 t) (outsAt0 m c (t.val - 1) hpos).2 (iblk m c 1 t)) (iblk m c 2 t) (iblk m c 3 t) (iblk m c 4 t) (iblk m c 5 t) := by
    rw [outsAt0_C m c t h0 h5]
    dsimp only
    exact Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h' => h0 ((hcond0_0 t).mp h')) ((hcond0_1 t).mpr h5) (iblk m c 0 t) (iblk m c 1 t) (iblk m c 2 t) (iblk m c 3 t) (iblk m c 4 t) (iblk m c 5 t) (outsAt0 m c (t.val - 1) hpos).2
  rw [ho, hs]

/-- The output block the last point of row block b leaves: entry j of it is the network's entry i on row
    1024·b + (row of j), same column. -/
theorem head_block (c : Dev nD) (t : Fin cfg0.N) (h5 : t.val % 6 = 5) (j : S1024x128.Idx) (i : S16384x128.Idx)
    (hi0 : (i 0).val = 1024 * (t.val / 6) + (j 0).val) (hi1 : (i 1).val = (j 1).val) :
    (outsAt0 m c t.val t.isLt).1 j = outArr m c i := by
  obtain ⟨p, q, rfl⟩ : ∃ (p : Fin 1024) (q : Fin 128), j = ix2 p q := ⟨j 0, j 1, eq_ix2 j⟩
  obtain ⟨P, Q, rfl⟩ : ∃ (P : Fin 16384) (Q : Fin 128), i = ix2 P Q := ⟨i 0, i 1, eq_ix2 i⟩
  obtain rfl : Q = q := Fin.ext hi1
  have hP : P.val = 1024 * (t.val / 6) + p.val := hi0
  refine (congrFun (out_at m c t h5) (ix2 p Q)).trans ?_
  refine (pay3_apply (outsAt0 m c t.val t.isLt).2 (iblk m c 2 t) (iblk m c 3 t) (iblk m c 4 t) (iblk m c 5 t) p Q).trans ?_
  refine (Mlp.head_eq_tiled (R := 1024) (B := 16384) (K := 3072) (N := 3072) (FC := 512) (CP := 128) (outsAt0 m c t.val t.isLt).2
    (V m c main_arg0) (V m c main_v0) (iblk m c 2 t) (iblk m c 3 t) (iblk m c 4 t) (iblk m c 5 t) p P Q
    (fun j => hidden_eq m c t h5 p j P hP)).trans ?_
  unfold outArr
  rw [iblk2_eq m c t, iblk3_eq m c t, iblk4_eq m c t, iblk5_eq m c t]

/-- What a point that writes the output window back writes is its block of the network. -/
theorem flushed_eq (c : Dev nD) (t : Fin cfg0.N) (hf : (cfg0.win 6).flush t = true) :
    (dats m 0 c).flushed 6 t = ((cfg0.win 6).blk t).view.read (Elt Ideal) (outArr m c) := by
  have h5 : t.val % 6 = 5 := (flush0_6 t).mp hf
  obtain ⟨-, -, -, -, -, -, -, -, -, -, -, -, e0, e1⟩ := idx_facts t
  show (cfg0.win 6).cut (grid0.coords t) ((dats m 0 c).after 6 t) = _
  rw [after0_6]
  funext j
  show (outsAt0 m c t.val t.isLt).1 j = outArr m c (((cfg0.win 6).blk t).view.emb j)
  exact head_block m c t h5 j _
    (by show win0_6.index t (0 : Fin 2) * 1024 + 1 * (j 0).val = 1024 * (t.val / 6) + (j 0).val; omega)
    (by show win0_6.index t (1 : Fin 2) * 128 + 1 * (j 1).val = (j 1).val; omega)

/-- An index of the array is in point t's block iff each coordinate is in the block's range on its axis. -/
theorem mem_blk (t : Fin cfg0.N) (i : S16384x128.Idx) :
    i ∈ ((cfg0.win 6).blk t).view.set
      ↔ ∀ a : Fin 2, win0_6.index t a * S1024x128.size a ≤ (i a).val ∧ (i a).val < win0_6.index t a * S1024x128.size a + S1024x128.size a := by
  show i ∈ ((View.whole main_v9).slice (win0_6.rect t)).set ↔ _
  rw [View.set_slice_whole, Rect.mem_set_unit]
  exact Iff.rfl

/-- Every index of the array is in the block of the writing point of its row block. -/
theorem cover (i : S16384x128.Idx) :
    ∃ t : Fin cfg0.N, (cfg0.win 6).flush t = true ∧ i ∈ ((cfg0.win 6).blk t).view.set := by
  have hN : cfg0.N = 96 := N_0
  have hi0 : (i 0).val < 16384 := (i 0).isLt
  have hi1 : (i 1).val < 128 := (i 1).isLt
  have ht : 6 * ((i 0).val / 1024) + 5 < cfg0.N := by omega
  obtain ⟨-, -, -, -, -, -, -, -, -, -, -, -, e0, e1⟩ := idx_facts ⟨6 * ((i 0).val / 1024) + 5, ht⟩
  have e0' : win0_6.index ⟨6 * ((i 0).val / 1024) + 5, ht⟩ (0 : Fin 2) = (6 * ((i 0).val / 1024) + 5) / 6 := e0
  refine ⟨⟨6 * ((i 0).val / 1024) + 5, ht⟩, (flush0_6 _).mpr (by show (6 * ((i 0).val / 1024) + 5) % 6 = 5; omega), ?_⟩
  rw [mem_blk]
  intro a
  match a with
  | ⟨0, _⟩ =>
    show win0_6.index ⟨6 * ((i 0).val / 1024) + 5, ht⟩ (0 : Fin 2) * 1024 ≤ (i 0).val
      ∧ (i 0).val < win0_6.index ⟨6 * ((i 0).val / 1024) + 5, ht⟩ (0 : Fin 2) * 1024 + 1024
    omega
  | ⟨1, _⟩ =>
    show win0_6.index ⟨6 * ((i 0).val / 1024) + 5, ht⟩ (1 : Fin 2) * 128 ≤ (i 1).val
      ∧ (i 1).val < win0_6.index ⟨6 * ((i 0).val / 1024) + 5, ht⟩ (1 : Fin 2) * 128 + 128
    omega

/-- So after the region the window's array is the network over the arrays the region was handed. -/
theorem final (c : Dev nD) : (dats m 0 c).arrAt 6 cfg0.N = outArr m c :=
  (dats m 0 c).arrAt_eq_of_cover 6 (outArr m c) (flushed_eq m c) (cover)

end Cert.KernelIdeal.Net

end
-- ==== Proof.Result.lean ====
/-
  The program's result: the network of its six arguments.

  After the region the host keeps columns 0 to 9 of the [16384, 128] array. There the operands the region was handed
  are the network's own: the first weight matrix unchanged by the change of format, the second transposed, its bias
  the one row, and — on the columns below 10, inside the padding's operand — the third transposed and its bias.
-/
import proofs.«119323_j23476291240731_2_alg».proof.Proof.Final
import Idealize.ShloMosaic.Lib.KernelVsHost

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Net

open Cert.KernelIdeal Cert.KernelIdeal.Gen

variable (m : (ℓ : Loc nD τ sig) → Buf (Elt Ideal) ℓ) (ρ : Dev nD → PrngReg)

/-! ## The handed arrays at an entry -/

/-- The first weight matrix: narrowing to bf16 changes nothing on the extended reals. -/
theorem V_v0_eq (c : Dev nD) : (V m c main_v0 : S3072x3072.Idx → EReal) = (m ((c : Thread nD τ).loc main_arg1)) :=
  (V_v0 m c).trans rfl

/-- The second weight matrix, handed transposed. -/
theorem V_v2_apply (c : Dev nD) (j : Fin 3072) (r : Fin 512) : V m c main_v2 (ix2 j r) = (m ((c : Thread nD τ).loc main_arg2)) (ix2 r j) :=
  (congrFun (V_v2 m c) (ix2 j r)).trans (transpose_ix2_apply (m ((c : Thread nD τ).loc main_arg2)) transposes_S512x3072_S3072x512_1_0 j r)

/-- Its bias, handed as one row. -/
theorem V_v5_apply (c : Dev nD) (r : Fin 512) : V m c main_v5 (ix2 (0 : Fin 1) r) = (m ((c : Thread nD τ).loc main_arg3)) (ix1 r) :=
  (congrFun (V_v5 m c) (ix2 (0 : Fin 1) r)).trans (shapeCast_a_1a_apply (m ((c : Thread nD τ).loc main_arg3)) shapeCasts_S512_S1x512 0 r)

/-- The third weight matrix, handed transposed and padded: on a column below 10 it is the matrix's own entry. -/
theorem V_v7_apply (c : Dev nD) (r : Fin 512) (q : Fin 10) (q' : Fin 128) (hq : q'.val = q.val) :
    V m c main_v7 (ix2 r q') = (m ((c : Thread nD τ).loc main_arg4)) (ix2 q r) :=
  (congrFun (V_v7 m c) (ix2 r q')).trans
    ((pad_apply_of_inside ![0, 0] ![0, 118] ![0, 0] _ _ pads_S512x10_S512x128_000_01180 h_S_ (ix2 r q') (ix2 r q) (fun a => by
      match a with
      | ⟨0, _⟩ => show r.val = 0 + r.val * (0 + 1); omega
      | ⟨1, _⟩ => show q'.val = 0 + q.val * (0 + 1); omega)).trans
    (transpose_ix2_apply (m ((c : Thread nD τ).loc main_arg4)) transposes_S10x512_S512x10_1_0 r q))

/-- Its bias, handed as one padded row: on a column below 10 it is the bias's own entry. -/
theorem V_v8_apply (c : Dev nD) (q : Fin 10) (q' : Fin 128) (hq : q'.val = q.val) :
    V m c main_v8 (ix2 (0 : Fin 1) q') = (m ((c : Thread nD τ).loc main_arg5)) (ix1 q) :=
  (congrFun (V_v8 m c) (ix2 (0 : Fin 1) q')).trans
    ((pad_apply_of_inside ![0, 0] ![0, 118] ![0, 0] _ _ pads_S1x10_S1x128_000_01180 h_S_ (ix2 (0 : Fin 1) q') (ix2 (0 : Fin 1) q) (fun a => by
      match a with
      | ⟨0, _⟩ => show 0 = 0 + 0 * (0 + 1); omega
      | ⟨1, _⟩ => show q'.val = 0 + q.val * (0 + 1); omega)).trans
    (shapeCast_a_1a_apply (m ((c : Thread nD τ).loc main_arg5)) shapeCasts_S10_S1x10 0 q))

/-! ## The result -/

/-- The program's result after the host's slice is the network of the six arguments. -/
theorem result_eq (c : Dev nD) : Pipeline.afterTail₀ cfgs (dats m) 0 (V0 m) [hostOps1] c main_v10
    = Mlp.out (B := 16384) (K := 3072) (N := 3072) (FC := 512) (C := 10) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold Pipeline.afterTail₀
  show StableHlo.after hostOps1 _ (Proc.devRef .tc main_v10) = _
  after_results
  have hw : Pipeline.withArrays (cfgs 0).spec c (V0 m c) (fun w => (dats m 0 c).arrAt w (cfgs 0).N) (Proc.devRef .tc main_v9)
      = outArr m c :=
    (Pipeline.withArrays_arr spec0 launch0.win.arr_inj c _ _ 6).trans (final m c)
  rw [hw]
  funext i
  obtain ⟨p, q, rfl⟩ : ∃ (p : Fin 16384) (q : Fin 10), i = ix2 p q := ⟨i 0, i 1, eq_ix2 i⟩
  have hq : q.val < 10 := q.isLt
  refine (slice2_axis1_apply 0 (outArr m c) slices_S16384x128_S16384x10_0_0 p q ⟨q.val, by omega⟩ (by simp)).trans ?_
  unfold outArr
  rw [V_main_arg0 m c, V_v0_eq m c]
  exact Mlp.tiled_eq_out (B := 16384) (K := 3072) (N := 3072) (FC := 512) (C := 10) (CP := 128) (m ((c : Thread nD τ).loc main_arg0)) (m ((c : Thread nD τ).loc main_arg1))
    (V m c main_v2) (V m c main_v5) (V m c main_v7) (V m c main_v8) (m ((c : Thread nD τ).loc main_arg2)) (m ((c : Thread nD τ).loc main_arg3)) (m ((c : Thread nD τ).loc main_arg4)) (m ((c : Thread nD τ).loc main_arg5)) p q ⟨q.val, by omega⟩
    (fun j r => V_v2_apply m c j r) (fun r => V_v5_apply m c r) (fun r => V_v7_apply m c r q ⟨q.val, by omega⟩ rfl)
    (V_v8_apply m c q ⟨q.val, by omega⟩ rfl)

/-- The run, read: every weakly fair execution ends with the result at the network of the arguments and the arguments
    unchanged. -/
theorem run : θ_run defs (onTc (τ := τ) (main (F := Ideal))) ⟨m, fun _ => 0, ρ⟩ fun r => ∀ c : Dev nD,
      r.2.mem ((c.tc : Thread nD τ).loc main_v10)
        = Mlp.out (B := 16384) (K := 3072) (N := 3072) (FC := 512) (C := 10) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v10 (Pipeline.mem_restRefs_of main_v10 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Net

end
-- ==== Proof.RefSide.lean ====
/-
  The reference's result is the network `Mlp.out` of its six arguments.

  The reference computes  max ((x · W) · fc_wᵀ + fc_b, 0) · logits_wᵀ + logits_b  with three dot_generals of plain
  dimension numbers, the weight matrices transposed first and each bias spread over the rows: literally the host's
  text of `Mlp.out`, at the extents 16384, 3072, 3072, 512, 10.
-/
import proofs.«119323_j23476291240731_2_alg».proof.Proof.Gen.ReferenceIdeal.Run
import proofs.«119323_j23476291240731_2_alg».proof.Proof.LibMlp

noncomputable section

namespace Cert.RefSide

open Cert.ReferenceIdeal Cert.ReferenceIdeal.Gen Idealize.ShloMosaic

/-- The composed term of the reference's run, as a function of the argument arrays, is `Mlp.out`. -/
theorem result_eq (x0 : FVec Ideal S16384x3072 .f32) (x1 : FVec Ideal S3072x3072 .f32) (x2 : FVec Ideal S512x3072 .f32)
    (x3 : FVec Ideal S512 .f32) (x4 : FVec Ideal S10x512 .f32) (x5 : FVec Ideal S10 .f32) :
    addf (Host.dotGeneral dot_S16384x512_S512x10_S16384x10_1_0_0_1_n_n none
        (maximumf (addf (Host.dotGeneral dot_S16384x3072_S3072x512_S16384x512_1_0_0_1_n_n none
              (Host.dotGeneral dot_S16384x3072_S3072x3072_S16384x3072_1_0_0_1_n_n none x0 x1)
              (transpose S3072x512 [1, 0] x2 transposes_S512x3072_S3072x512_1_0))
            (broadcastInDim S16384x512 ![0, 1] bcast_S1x512_S16384x512_0_1 (broadcastInDim S1x512 ![1] bcast_S512_S1x512_1 x3)))
          (broadcastInDim S16384x512 ![] bcast_S_S16384x512 (constant (F := Ideal) S_ .f32 0x00000000#32)))
        (transpose S512x10 [1, 0] x4 transposes_S10x512_S512x10_1_0))
      (broadcastInDim S16384x10 ![0, 1] bcast_S1x10_S16384x10_0_1 (broadcastInDim S1x10 ![1] bcast_S10_S1x10_1 x5))
    = Mlp.out x0 x1 x2 x3 x4 x5 :=
  Mlp.host_eq dot_S16384x3072_S3072x3072_S16384x3072_1_0_0_1_n_n rfl dot_S16384x3072_S3072x512_S16384x512_1_0_0_1_n_n rfl
    dot_S16384x512_S512x10_S16384x10_1_0_0_1_n_n rfl transposes_S512x3072_S3072x512_1_0 transposes_S10x512_S512x10_1_0
    bcast_S512_S1x512_1 bcast_S1x512_S16384x512_0_1 bcast_S_S16384x512 bcast_S10_S1x10_1 bcast_S1x10_S16384x10_0_1
    x0 x1 x2 x3 x4 x5

end Cert.RefSide

end
-- ==== Proof.lean ====
/-
  The proof of `Cert.Claim`: the three frames, the (empty) idealization ledger, and the equality of the kernel's and the
  reference's results on the extended reals.

  Both programs compute the network  max ((x · W) · fc_wᵀ + fc_b, 0) · logits_wᵀ + logits_b  of their six arguments
  (`Mlp.out`). The reference does so in one piece. The kernel takes the first product block by block — six blocks of 512
  contraction positions for each block of 1024 rows, accumulated in a scratch buffer over six grid points — and at the
  last of the six applies the two later layers, the third padded to 128 output columns of which the host keeps the
  first 10. On the extended reals the changes of float format are the identity, a product into a zero accumulator is the
  plain sum, and the sum over 3072 positions is the sum of its six consecutive blocks by commutativity and associativity
  alone: no finiteness of the inputs is used, and the precondition is never opened.
-/
import proofs.«119323_j23476291240731_2_alg».proof.Defs
import proofs.«119323_j23476291240731_2_alg».proof.Proof.Gen.Kernel
import proofs.«119323_j23476291240731_2_alg».proof.Proof.Gen.Kernel.Skeleton
import proofs.«119323_j23476291240731_2_alg».proof.Proof.Gen.Kernel.Launch
import proofs.«119323_j23476291240731_2_alg».proof.Proof.Gen.Kernel.Points
import proofs.«119323_j23476291240731_2_alg».proof.Proof.Gen.Kernel.Frame
import proofs.«119323_j23476291240731_2_alg».proof.Proof.Gen.KernelIdeal
import proofs.«119323_j23476291240731_2_alg».proof.Proof.Gen.KernelIdeal.Skeleton
import proofs.«119323_j23476291240731_2_alg».proof.Proof.Gen.KernelIdeal.Launch
import proofs.«119323_j23476291240731_2_alg».proof.Proof.Gen.KernelIdeal.Points
import proofs.«119323_j23476291240731_2_alg».proof.Proof.Gen.KernelIdeal.Frame
import proofs.«119323_j23476291240731_2_alg».proof.Proof.Gen.ReferenceIdeal
import proofs.«119323_j23476291240731_2_alg».proof.Proof.Gen.ReferenceIdeal.Run
import proofs.«119323_j23476291240731_2_alg».proof.Proof.Gen.Pre_finite_inputs
import proofs.«119323_j23476291240731_2_alg».proof.Proof.Result
import proofs.«119323_j23476291240731_2_alg».proof.Proof.RefSide
import Idealize.ShloMosaic.Adequacy
import Idealize.ShloMosaic.Init

noncomputable section

namespace Cert.Proof

open Idealize.ShloMosaic Idealize.SL.Sem

/-- The printed kernel runs and leaves its arguments unchanged: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- On the extended reals the kernel's result (read off its frame run, block by block) and the reference's (its generated
    run) are the same network of arguments that agree. -/
theorem algebraic : Cert.algebraic_KernelIdeal_ReferenceIdeal := by
  intro m ρ m' ρ' _ hagree
  refine ⟨fun c => Mlp.out (B := 16384) (K := 3072) (N := 3072) (FC := 512) (C := 10) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  rw [Cert.RefSide.result_eq, (hagree c).1, (hagree c).2.1, (hagree c).2.2.1, (hagree c).2.2.2.1, (hagree c).2.2.2.2.1,
    (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
